-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x1024 : Shape := ⟨3, ![4, 1024, 1024]⟩
abbrev S2048x64 : Shape := ⟨2, ![2048, 64]⟩
abbrev S_ : Shape := ⟨0, ![]⟩

class Facts : Prop where
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel
  bcast_S_S2048x64 : S_.BroadcastsInDim S2048x64 (![] : Fin 0 → Fin S2048x64.rank)
  reducesTo_S2048x64_S_d0_1 : S2048x64.ReducesTo [0, 1] S_

variable [Facts]

def fn_part1 {F : FTy → Type} [FloatOps F] (main_arg4 : FVec F S2048x64 .f32) (main_v13 : IVec S_ 1) (main_v16 : IVec S2048x64 1) : IVec S_ 1 :=
  let main_c_5 : IVec S_ 1 := constantI S_ 1 1#1
  let main_v17 : IVec S_ 1 := (fun x v => Host.reduce IntOp.andi x v reducesTo_S2048x64_S_d0_1 h_S_) main_v16 main_c_5
  let main_v18 : IVec S_ 1 := andi main_v13 main_v17
  let main_v19 : FVec F S2048x64 .f32 := Host.absf main_arg4
  let main_cst_6 : FVec F S_ .f32 := constant S_ .f32 0x7F800000#32
  let main_v20 : FVec F S2048x64 .f32 := broadcastInDim S2048x64 ![] bcast_S_S2048x64 main_cst_6
  let main_v21 : IVec S2048x64 1 := cmpf .olt main_v19 main_v20
  let main_c_7 : IVec S_ 1 := constantI S_ 1 1#1
  let main_v22 : IVec S_ 1 := (fun x v => Host.reduce IntOp.andi x v reducesTo_S2048x64_S_d0_1 h_S_) main_v21 main_c_7
  let main_v23 : IVec S_ 1 := andi main_v18 main_v22
  main_v23

def fn {F : FTy → Type} [FloatOps F] (main_arg0 : FVec F S4x1024x1024 .f32) (main_arg1 : FVec F S4x1024x1024 .f32) (main_arg2 : FVec F S4x1024x1024 .f32) (main_arg3 : FVec F S2048x64 .f32) (main_arg4 : FVec F S2048x64 .f32) : IVec S_ 1 :=
  let main_v0 : FVec F S4x1024x1024 .f32 := Host.absf main_arg0
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_c : IVec S_ 1 := constantI S_ 1 1#1
  let main_v3 : IVec S_ 1 := (fun x v => Host.reduce IntOp.andi x v reducesTo_S4x1024x1024_S_d0_1_2 h_S_) main_v2 main_c
  let main_v4 : FVec F S4x1024x1024 .f32 := Host.absf main_arg1
  let main_cst_0 : FVec F S_ .f32 := constant S_ .f32 0x7F800000#32
  let main_v5 : FVec F S4x1024x1024 .f32 := broadcastInDim S4x1024x1024 ![] bcast_S_S4x1024x1024 main_cst_0
  let main_v6 : IVec S4x1024x1024 1 := cmpf .olt main_v4 main_v5
  let main_c_1 : IVec S_ 1 := constantI S_ 1 1#1
  let main_v7 : IVec S_ 1 := (fun x v => Host.reduce IntOp.andi x v reducesTo_S4x1024x1024_S_d0_1_2 h_S_) main_v6 main_c_1
  let main_v8 : IVec S_ 1 := andi main_v3 main_v7
  let main_v9 : FVec F S4x1024x1024 .f32 := Host.absf main_arg2
  let main_cst_2 : FVec F S_ .f32 := constant S_ .f32 0x7F800000#32
  let main_v10 : FVec F S4x1024x1024 .f32 := broadcastInDim S4x1024x1024 ![] bcast_S_S4x1024x1024 main_cst_2
  let main_v11 : IVec S4x1024x1024 1 := cmpf .olt main_v9 main_v10
  let main_c_3 : IVec S_ 1 := constantI S_ 1 1#1
  let main_v12 : IVec S_ 1 := (fun x v => Host.reduce IntOp.andi x v reducesTo_S4x1024x1024_S_d0_1_2 h_S_) main_v11 main_c_3
  let main_v13 : IVec S_ 1 := andi main_v8 main_v12
  let main_v14 : FVec F S2048x64 .f32 := Host.absf main_arg3
  let main_cst_4 : FVec F S_ .f32 := constant S_ .f32 0x7F800000#32
  let main_v15 : FVec F S2048x64 .f32 := broadcastInDim S2048x64 ![] bcast_S_S2048x64 main_cst_4
  let main_v16 : IVec S2048x64 1 := cmpf .olt main_v14 main_v15
  fn_part1 (F := F) main_arg4 main_v13 main_v16
-- ==== Kernel.lean ====
abbrev S4x1024x1024 : Shape := ⟨3, ![4, 1024, 1024]⟩
abbrev S2048x64 : Shape := ⟨2, ![2048, 64]⟩
abbrev S1024x64 : Shape := ⟨2, ![1024, 64]⟩
abbrev S1x1024x128 : Shape := ⟨3, ![1, 1024, 128]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S2048x64, .f32⟩
  | .hbm, ⟨4, _⟩ => ⟨S2048x64, .f32⟩
  | .hbm, ⟨5, _⟩ => ⟨S1024x64, .f32⟩
  | .hbm, ⟨6, _⟩ => ⟨S1024x64, .f32⟩
  | .hbm, ⟨7, _⟩ => ⟨S4x1024x1024, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1024x64, .f32⟩
  | .local _ .vmem, ⟨7, _⟩ => ⟨S1024x64, .f32⟩
  | .local _ .vmem, ⟨8, _⟩ => ⟨S1x1024x128, .f32⟩
  | .local _ .vmem, ⟨9, _⟩ => ⟨S1x1024x128, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S2048x64_S1024x64_0_0 : S2048x64.Slices ![0, 0] S1024x64
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  slices_S1024x128_o0_0_S1024x64 : S1024x128.Slices ![0, 0] S1024x64
  bitsLt_bf16_f32 : FTy.bits .bf16 < FTy.bits .f32
  reduces_S1024x1024_S1024 : S1024x1024.Reduces [1] S1024
  shapeCasts_S1024_S1024x1 : S1024.ShapeCasts S1024x1
  broadcasts_S1024x1_S1024x1024 : S1024x1.Broadcasts S1024x1024
  slices_S1024x128_o0_64_S1024x64 : S1024x128.Slices ![0, 64] S1024x64
  concatenates_S1024x64_S1024x64_S1024x128_d1 : Shape.Concatenates [S1024x64, S1024x64] S1024x128 1
  shapeCasts_S1024x128_S1x1024x128 : S1024x128.ShapeCasts S1x1024x128
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S4x1024x1024.size a
  hwx0_0 : ∀ i : grid0.Coords, EltTy.bits .f32 = 32 ∨ (Rect.block (s := S4x1024x1024) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S4x1024x1024.size a
  hwx0_1 : ∀ i : grid0.Coords, EltTy.bits .f32 = 32 ∨ (Rect.block (s := S4x1024x1024) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S4x1024x1024.size a
  hwx0_2 : ∀ i : grid0.Coords, EltTy.bits .f32 = 32 ∨ (Rect.block (s := S4x1024x1024) S1x1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S1024x64.size a
  hwx0_4 : ∀ i : grid0.Coords, EltTy.bits .f32 = 32 ∨ (Rect.block (s := S1024x64) S1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x128.size a ≤ S4x1024x1024.size a
  hwx0_5 : ∀ i : grid0.Coords, EltTy.bits .f32 = 32 ∨ (Rect.block (s := S4x1024x1024) S1x1024x128.size (cc0_transform_5 i) (hinb0_5 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x1024x1024 : Shape := ⟨3, ![4, 1024, 1024]⟩
abbrev S2048x64 : Shape := ⟨2, ![2048, 64]⟩
abbrev S4x1024x16x64 : Shape := ⟨4, ![4, 1024, 16, 64]⟩
abbrev S4x16x1024x64 : Shape := ⟨4, ![4, 16, 1024, 64]⟩
abbrev S4x16x1024x1024 : Shape := ⟨4, ![4, 16, 1024, 1024]⟩
abbrev S_ : Shape := ⟨0, ![]⟩
abbrev S1024x64 : Shape := ⟨2, ![1024, 64]⟩
abbrev S4x16x1024 : Shape := ⟨3, ![4, 16, 1024]⟩
abbrev S4x16x1024x1 : Shape := ⟨4, ![4, 16, 1024, 1]⟩

abbrev nBuf : Space → Nat
  | .hbm => 38
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S2048x64, .f32⟩
  | .hbm, ⟨4, _⟩ => ⟨S2048x64, .f32⟩
  | .hbm, ⟨5, _⟩ => ⟨S4x1024x16x64, .f32⟩
  | .hbm, ⟨6, _⟩ => ⟨S4x16x1024x64, .f32⟩
  | .hbm, ⟨7, _⟩ => ⟨S4x1024x16x64, .f32⟩
  | .hbm, ⟨8, _⟩ => ⟨S4x16x1024x64, .f32⟩
  | .hbm, ⟨9, _⟩ => ⟨S4x1024x16x64, .f32⟩
  | .hbm, ⟨10, _⟩ => ⟨S4x16x1024x64, .f32⟩
  | .hbm, ⟨11, _⟩ => ⟨S4x16x1024x1024, .f32⟩
  | .hbm, ⟨12, _⟩ => ⟨S_, .f32⟩
  | .hbm, ⟨13, _⟩ => ⟨S4x16x1024x1024, .f32⟩
  | .hbm, ⟨14, _⟩ => ⟨S4x16x1024x1024, .f32⟩
  | .hbm, ⟨15, _⟩ => ⟨S1024x64, .f32⟩
  | .hbm, ⟨16, _⟩ => ⟨S4x16x1024x1024, .f32⟩
  | .hbm, ⟨17, _⟩ => ⟨S4x16x1024x1024, .f32⟩
  | .hbm, ⟨18, _⟩ => ⟨S_, .f32⟩
  | .hbm, ⟨19, _⟩ => ⟨S4x16x1024, .f32⟩
  | .hbm, ⟨20, _⟩ => ⟨S_, .f32⟩
  | .hbm, ⟨21, _⟩ => ⟨S4x16x1024, .f32⟩
  | .hbm, ⟨22, _⟩ => ⟨S4x16x1024, .f32⟩
  | .hbm, ⟨23, _⟩ => ⟨S4x16x1024x1, .f32⟩
  | .hbm, ⟨24, _⟩ => ⟨S4x16x1024x1024, .f32⟩
  | .hbm, ⟨25, _⟩ => ⟨S4x16x1024x1024, .f32⟩
  | .hbm, ⟨26, _⟩ => ⟨S4x16x1024x1024, .f32⟩
  | .hbm, ⟨27, _⟩ => ⟨S_, .f32⟩
  | .hbm, ⟨28, _⟩ => ⟨S4x16x1024, .f32⟩
  | .hbm, ⟨29, _⟩ => ⟨S4x16x1024x1, .f32⟩
  | .hbm, ⟨30, _⟩ => ⟨S4x16x1024x1024, .f32⟩
  | .hbm, ⟨31, _⟩ => ⟨S4x16x1024x1024, .f32⟩
  | .hbm, ⟨32, _⟩ => ⟨S4x16x1024x64, .f32⟩
  | .hbm, ⟨33, _⟩ => ⟨S1024x64, .f32⟩
  | .hbm, ⟨34, _⟩ => ⟨S4x16x1024x64, .f32⟩
  | .hbm, ⟨35, _⟩ => ⟨S4x16x1024x64, .f32⟩
  | .hbm, ⟨36, _⟩ => ⟨S4x1024x16x64, .f32⟩
  | .hbm, ⟨37, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  shapeCasts_S4x1024x1024_S4x1024x16x64 : S4x1024x1024.ShapeCasts S4x1024x16x64
  transposes_S4x1024x16x64_S4x16x1024x64_0_2_1_3 : S4x1024x16x64.Transposes [0, 2, 1, 3] S4x16x1024x64
  bcast_S_S4x16x1024x1024 : S_.BroadcastsInDim S4x16x1024x1024 (![] : Fin 0 → Fin S4x16x1024x1024.rank)
  slices_S2048x64_S1024x64_0_0 : S2048x64.Slices ![0, 0] S1024x64
  reducesTo_S4x16x1024x1024_S4x16x1024_d3 : S4x16x1024x1024.ReducesTo [3] S4x16x1024
  h_S_ : 0 < S_.numel
  bcast_S_S4x16x1024 : S_.BroadcastsInDim S4x16x1024 (![] : Fin 0 → Fin S4x16x1024.rank)
  bcast_S4x16x1024_S4x16x1024x1_0_1_2 : S4x16x1024.BroadcastsInDim S4x16x1024x1 (![0, 1, 2] : Fin 3 → Fin S4x16x1024x1.rank)
  bcast_S4x16x1024x1_S4x16x1024x1024_0_1_2_3 : S4x16x1024x1.BroadcastsInDim S4x16x1024x1024 (![0, 1, 2, 3] : Fin 4 → Fin S4x16x1024x1024.rank)
  transposes_S4x16x1024x64_S4x1024x16x64_0_2_1_3 : S4x16x1024x64.Transposes [0, 2, 1, 3] S4x1024x16x64
  shapeCasts_S4x1024x16x64_S4x1024x1024 : S4x1024x16x64.ShapeCasts S4x1024x1024
  dot_S4x16x1024x64_S4x16x1024x64_S4x16x1024x1024_3_3_2_2_01_01_wf : DotDims.WF S4x16x1024x64 S4x16x1024x64 S4x16x1024x1024 [3] [3] [2] [2] [0, 1] [0, 1]
  dot_S4x16x1024x64_S1024x64_S4x16x1024x1024_3_1_012_0_n_n_wf : DotDims.WF S4x16x1024x64 S1024x64 S4x16x1024x1024 [3] [1] [0, 1, 2] [0] [] []
  dot_S4x16x1024x1024_S4x16x1024x64_S4x16x1024x64_3_2_2_3_01_01_wf : DotDims.WF S4x16x1024x1024 S4x16x1024x64 S4x16x1024x64 [3] [2] [2] [3] [0, 1] [0, 1]
  dot_S4x16x1024x1024_S1024x64_S4x16x1024x64_3_0_012_1_n_n_wf : DotDims.WF S4x16x1024x1024 S1024x64 S4x16x1024x64 [3] [0] [0, 1, 2] [1] [] []

variable [Facts₀]

def dot_S4x16x1024x64_S4x16x1024x64_S4x16x1024x1024_3_3_2_2_01_01 : DotDims S4x16x1024x64 S4x16x1024x64 S4x16x1024x1024 where
  lhsContracting := [3]
  rhsContracting := [3]
  lhsNonContracting := [2]
  rhsNonContracting := [2]
  lhsBatch := [0, 1]
  rhsBatch := [0, 1]
  wf := dot_S4x16x1024x64_S4x16x1024x64_S4x16x1024x1024_3_3_2_2_01_01_wf
def dot_S4x16x1024x64_S1024x64_S4x16x1024x1024_3_1_012_0_n_n : DotDims S4x16x1024x64 S1024x64 S4x16x1024x1024 where
  lhsContracting := [3]
  rhsContracting := [1]
  lhsNonContracting := [0, 1, 2]
  rhsNonContracting := [0]
  lhsBatch := []
  rhsBatch := []
  wf := dot_S4x16x1024x64_S1024x64_S4x16x1024x1024_3_1_012_0_n_n_wf
def dot_S4x16x1024x1024_S4x16x1024x64_S4x16x1024x64_3_2_2_3_01_01 : DotDims S4x16x1024x1024 S4x16x1024x64 S4x16x1024x64 where
  lhsContracting := [3]
  rhsContracting := [2]
  lhsNonContracting := [2]
  rhsNonContracting := [3]
  lhsBatch := [0, 1]
  rhsBatch := [0, 1]
  wf := dot_S4x16x1024x1024_S4x16x1024x64_S4x16x1024x64_3_2_2_3_01_01_wf
def dot_S4x16x1024x1024_S1024x64_S4x16x1024x64_3_0_012_1_n_n : DotDims S4x16x1024x1024 S1024x64 S4x16x1024x64 where
  lhsContracting := [3]
  rhsContracting := [0]
  lhsNonContracting := [0, 1, 2]
  rhsNonContracting := [1]
  lhsBatch := []
  rhsBatch := []
  wf := dot_S4x16x1024x1024_S1024x64_S4x16x1024x64_3_0_012_1_n_n_wf

class Facts : Prop extends Facts₀ where

variable [Facts]
-- ==== Proof.AttnSpec.lean ====
/-
  Relative-position attention for one head, as functions on the extended reals.

  One head of the attention, for one query row: with `q : D → EReal` the query row, `k v : K → D → EReal` the keys and
  values of the head, `rk rv : K → D → EReal` the relative-position tables and `c` the scale,
    score j   = c-scaled content score of key j plus the query's product with row j of the key table,
    weight j  = exp (score j - max score) / Σ exp (score - max score)          (the softmax of the row),
    out d     = the weights' combination of the values plus their combination of the value table.
  The score and the output are each written in two arrangements: FOLDED (the table is added to the keys, resp. values,
  before the one product) and SPLIT (two products, added afterwards). Over the reals they are equal by distributivity.
-/
import Idealize.ShloMosaic.PureOps.Ideal

noncomputable section

namespace Cert.RelAttn

open Idealize.ShloMosaic

variable {K D : Type} [Fintype K] [Fintype D]

/-- Score of key `j`, folded: the query against the scaled key with the table row added. -/
def foldedScore (c : EReal) (q : D → EReal) (k rk : K → D → EReal) (j : K) : EReal :=
  ∑ e, q e * (c * k j e + rk j e)

/-- Score of key `j`, split: the scaled content product plus the query's product with the table row. -/
def splitScore (c : EReal) (q : D → EReal) (k rk : K → D → EReal) (j : K) : EReal :=
  (∑ e, q e * k j e) * c + ∑ e, q e * rk j e

/-- The maximum of a row of scores, taken from `-∞`. -/
def rowMax (s : K → EReal) : EReal := (Finset.univ : Finset K).fold max ⊥ s

/-- The softmax weight of key `j` in a row of scores. -/
def weight (s : K → EReal) (j : K) : EReal :=
  Ideal.div (Ideal.exp (s j - rowMax s)) (∑ j', Ideal.exp (s j' - rowMax s))

/-- Output coordinate `d`, folded: the weights against the values with the table rows added. -/
def foldedOut (a : K → EReal) (v rv : K → D → EReal) (d : D) : EReal :=
  ∑ j, a j * (v j d + rv j d)

/-- Output coordinate `d`, split: the weights against the values plus the weights against the table. -/
def splitOut (a : K → EReal) (v rv : K → D → EReal) (d : D) : EReal :=
  (∑ j, a j * v j d) + ∑ j, a j * rv j d

/-- One head, folded arrangement. -/
def headFolded (c : EReal) (q : D → EReal) (k v rk rv : K → D → EReal) (d : D) : EReal :=
  foldedOut (weight (foldedScore c q k rk)) v rv d

/-- One head, split arrangement. -/
def headSplit (c : EReal) (q : D → EReal) (k v rk rv : K → D → EReal) (d : D) : EReal :=
  splitOut (weight (splitScore c q k rk)) v rv d

end Cert.RelAttn

end
-- ==== Proof.AttnIdx.lean ====
/-
  Where one head's data sits in the arrays, and the attention output as one function of the five argument arrays.

  The [4, 1024, 1024] arrays hold, for batch `b` and sequence position `s`, the sixteen heads side by side along the
  last axis: head `h`'s coordinate `e` is column `64 h + e`. The two [2048, 64] tables are used through their
  first 1024 rows. `G` is the output array: at (b, s, col) it is head `col / 64`'s output coordinate `col % 64` for
  the query at position `s`, over the keys and values of all 1024 positions of batch `b`.
-/
import Idealize.ShloMosaic.Lib.ValueIdx
import proofs.«112775_j2422361555012_2_alg».proof.Proof.AttnSpec

noncomputable section

namespace Cert.RelAttn

open Idealize.ShloMosaic Idealize.ShloMosaic.ValueIdx

/-- The shape of the query, key, value and output arrays. -/
abbrev Arr3 : Shape := ⟨3, ![4, 1024, 1024]⟩
/-- The shape of the two relative-position tables. -/
abbrev Tab : Shape := ⟨2, ![2048, 64]⟩

/-- Position (b, s, 64 h + e): coordinate `e` of head `h` at sequence position `s` of batch `b`. -/
abbrev at3 (b : Fin 4) (s : Fin 1024) (h : Fin 16) (e : Fin 64) : Arr3.Idx :=
  ix3 b s (⟨h.val * 64 + e.val, by have := h.isLt; have := e.isLt; omega⟩ : Fin 1024)

/-- Row `j` (one of the first 1024), column `e` of a table. -/
abbrev row (j : Fin 1024) (e : Fin 64) : Tab.Idx :=
  ix2 (⟨j.val, by have := j.isLt; omega⟩ : Fin 2048) e

/-- The scale 1/8 as both programs spell it. -/
def scale : EReal := Ideal.ofBits .f32 0x3E000000#32

/-- Head `h` of batch `b` for the query at `s`, output coordinate `d`: the split arrangement. -/
def headAt (x0 x1 x2 : FVec Ideal Arr3 .f32) (x3 x4 : FVec Ideal Tab .f32) (b : Fin 4) (s : Fin 1024) (h : Fin 16)
    (d : Fin 64) : EReal :=
  headSplit scale (fun e => x0 (at3 b s h e)) (fun j e => x1 (at3 b j h e)) (fun j e => x2 (at3 b j h e))
    (fun j e => x3 (row j e)) (fun j e => x4 (row j e)) d

/-- The same head in the folded arrangement. -/
def headAtFolded (x0 x1 x2 : FVec Ideal Arr3 .f32) (x3 x4 : FVec Ideal Tab .f32) (b : Fin 4) (s : Fin 1024) (h : Fin 16)
    (d : Fin 64) : EReal :=
  headFolded scale (fun e => x0 (at3 b s h e)) (fun j e => x1 (at3 b j h e)) (fun j e => x2 (at3 b j h e))
    (fun j e => x3 (row j e)) (fun j e => x4 (row j e)) d

/-- The output array as one function of the argument arrays. -/
def G (x0 x1 x2 : FVec Ideal Arr3 .f32) (x3 x4 : FVec Ideal Tab .f32) : FVec Ideal Arr3 .f32 := fun i =>
  headAt x0 x1 x2 x3 x4 ⟨(i 0).val, (i 0).isLt⟩ ⟨(i 1).val, (i 1).isLt⟩
    ⟨(i 2).val / 64, by have h2 : (i 2).val < 1024 := (i 2).isLt; omega⟩
    ⟨(i 2).val % 64, Nat.mod_lt _ (by decide)⟩

/-- `G` at a position written by its coordinates. -/
theorem G_at (x0 x1 x2 : FVec Ideal Arr3 .f32) (x3 x4 : FVec Ideal Tab .f32) (b : Fin 4) (s : Fin 1024) (h : Fin 16)
    (d : Fin 64) : G x0 x1 x2 x3 x4 (at3 b s h d) = headAt x0 x1 x2 x3 x4 b s h d := by
  have hh := h.isLt
  have hd := d.isLt
  have e1 : (⟨(h.val * 64 + d.val) / 64, by omega⟩ : Fin 16) = h := Fin.ext (by show (h.val * 64 + d.val) / 64 = h.val; omega)
  have e2 : (⟨(h.val * 64 + d.val) % 64, Nat.mod_lt _ (by decide)⟩ : Fin 64) = d :=
    Fin.ext (by show (h.val * 64 + d.val) % 64 = d.val; omega)
  show headAt x0 x1 x2 x3 x4 b s ⟨(h.val * 64 + d.val) / 64, _⟩ ⟨(h.val * 64 + d.val) % 64, _⟩ = _
  rw [e1, e2]

end Cert.RelAttn

end
-- ==== Proof.AttnAlgebra.lean ====
/-
  The folded and the split arrangement of one attention head agree when every input is a finite real.

  The extended reals are not distributive in general (for instance (1 + (-1)) * ⊤ = 0 while 1 * ⊤ + (-1) * ⊤ = ⊥),
  so each step first writes every entry as the coercion of a real, pushes the coercion outwards through products
  and finite sums, and then uses distributivity in ℝ:
    (i)   the folded score of a key equals its split score, and both are reals;
    (ii)  the maximum of a nonempty row of reals is a real, hence every softmax weight of such a row is a real
          (the denominator is a finite sum of positive reals, so it is a nonzero real);
    (iii) for real weights, values and table rows, the folded output equals the split output.
-/
import proofs.«112775_j2422361555012_2_alg».proof.Proof.AttnSpec

noncomputable section

namespace Cert.RelAttn

open Idealize.ShloMosaic

variable {K D : Type} [Fintype K] [Fintype D]

/-- The coercion of the reals into the extended reals commutes with finite sums. -/
theorem coe_finset_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-! ### (i) The two arrangements of the score -/

/-- On real inputs the folded score is the coercion of the real folded score. -/
theorem foldedScore_coe (c : ℝ) (q : D → ℝ) (k rk : K → D → ℝ) (j : K) :
    foldedScore (c : EReal) (fun e => (q e : EReal)) (fun j e => (k j e : EReal))
        (fun j e => (rk j e : EReal)) j
      = ((∑ e, q e * (c * k j e + rk j e) : ℝ) : EReal) := by
  unfold foldedScore
  rw [coe_finset_sum]
  refine Finset.sum_congr rfl (fun e _ => ?_)
  rw [EReal.coe_mul, EReal.coe_add, EReal.coe_mul]

/-- On real inputs the split score is the coercion of the real split score. -/
theorem splitScore_coe (c : ℝ) (q : D → ℝ) (k rk : K → D → ℝ) (j : K) :
    splitScore (c : EReal) (fun e => (q e : EReal)) (fun j e => (k j e : EReal))
        (fun j e => (rk j e : EReal)) j
      = (((∑ e, q e * k j e) * c + ∑ e, q e * rk j e : ℝ) : EReal) := by
  unfold splitScore
  rw [EReal.coe_add, EReal.coe_mul, coe_finset_sum, coe_finset_sum]
  simp only [EReal.coe_mul]

/-- Distributivity in the reals: the sum of q (c k + r) is (the sum of q k) c plus the sum of q r. -/
theorem real_score_eq (c : ℝ) (q : D → ℝ) (k rk : K → D → ℝ) (j : K) :
    (∑ e, q e * (c * k j e + rk j e)) = (∑ e, q e * k j e) * c + ∑ e, q e * rk j e := by
  rw [Finset.sum_mul, ← Finset.sum_add_distrib]
  exact Finset.sum_congr rfl (fun e _ => by ring)

/-- The folded score equals the split score, and it is a real, when the inputs are reals. -/
theorem foldedScore_eq_splitScore (c : EReal) (q : D → EReal) (k rk : K → D → EReal)
    (hc : ∃ r : ℝ, c = (r : EReal)) (hq : ∀ e, ∃ r : ℝ, q e = (r : EReal))
    (hk : ∀ j e, ∃ r : ℝ, k j e = (r : EReal)) (hrk : ∀ j e, ∃ r : ℝ, rk j e = (r : EReal)) (j : K) :
    foldedScore c q k rk j = splitScore c q k rk j ∧ ∃ r : ℝ, splitScore c q k rk j = (r : EReal) := by
  obtain ⟨c', rfl⟩ := hc
  choose q' hq' using hq
  choose k' hk' using hk
  choose rk' hrk' using hrk
  obtain rfl : q = fun e => (q' e : EReal) := funext hq'
  obtain rfl : k = fun j e => (k' j e : EReal) := funext fun j => funext (hk' j)
  obtain rfl : rk = fun j e => (rk' j e : EReal) := funext fun j => funext (hrk' j)
  rw [foldedScore_coe, splitScore_coe, real_score_eq]
  exact ⟨rfl, _, rfl⟩

/-! ### (ii) The softmax weights of a row of reals are reals -/

/-- The running maximum, started from minus infinity, of a nonempty finite family of reals is a real. -/
theorem fold_max_real (s : K → EReal) (hs : ∀ j, ∃ r : ℝ, s j = (r : EReal)) (t : Finset K) :
    t.Nonempty → ∃ m : ℝ, t.fold max ⊥ s = (m : EReal) := by
  classical
  refine Finset.induction_on t ?_ ?_
  · intro h
    exact absurd h Finset.not_nonempty_empty
  · intro a t ha ih _
    obtain ⟨r, hr⟩ := hs a
    rw [Finset.fold_insert ha, hr]
    rcases t.eq_empty_or_nonempty with rfl | hne
    · exact ⟨r, by rw [Finset.fold_empty, max_eq_left bot_le]⟩
    · obtain ⟨m, hm⟩ := ih hne
      rw [hm]
      rcases le_total r m with h | h
      · exact ⟨m, max_eq_right (EReal.coe_le_coe_iff.mpr h)⟩
      · exact ⟨r, max_eq_left (EReal.coe_le_coe_iff.mpr h)⟩

/-- The maximum of a nonempty row of reals is a real. -/
theorem rowMax_real [Nonempty K] (s : K → EReal) (hs : ∀ j, ∃ r : ℝ, s j = (r : EReal)) :
    ∃ m : ℝ, rowMax s = (m : EReal) :=
  fold_max_real s hs Finset.univ Finset.univ_nonempty

/-- Every softmax weight of a nonempty row of reals is a real: the numerator is the exponential of a real, the
    denominator a finite sum of positive reals, so nonzero, and the quotient is a product of reals. -/
theorem weight_real [Nonempty K] (s : K → EReal) (hs : ∀ j, ∃ r : ℝ, s j = (r : EReal)) (j : K) :
    ∃ r : ℝ, weight s j = (r : EReal) := by
  obtain ⟨m, hm⟩ := rowMax_real s hs
  choose s' hs' using hs
  have hterm : ∀ j', Ideal.exp (s j' - rowMax s) = ((Real.exp (s' j' - m) : ℝ) : EReal) := by
    intro j'
    rw [hm, hs' j', ← EReal.coe_sub, Ideal.exp_coe]
  have hden : (∑ j', Ideal.exp (s j' - rowMax s)) = ((∑ j', Real.exp (s' j' - m) : ℝ) : EReal) := by
    rw [coe_finset_sum]
    exact Finset.sum_congr rfl (fun j' _ => hterm j')
  have hpos : (0 : ℝ) < ∑ j', Real.exp (s' j' - m) :=
    Finset.sum_pos (fun i _ => Real.exp_pos _) Finset.univ_nonempty
  unfold weight
  rw [hden, hterm j, Ideal.div_coe (ne_of_gt hpos), ← EReal.coe_mul]
  exact ⟨_, rfl⟩

/-! ### (iii) The two arrangements of the output -/

/-- For real weights, values and table rows the folded output equals the split output. -/
theorem foldedOut_eq_splitOut (a : K → EReal) (v rv : K → D → EReal)
    (ha : ∀ j, ∃ r : ℝ, a j = (r : EReal)) (hv : ∀ j e, ∃ r : ℝ, v j e = (r : EReal))
    (hrv : ∀ j e, ∃ r : ℝ, rv j e = (r : EReal)) (d : D) :
    foldedOut a v rv d = splitOut a v rv d := by
  choose a' ha' using ha
  choose v' hv' using hv
  choose rv' hrv' using hrv
  unfold foldedOut splitOut
  have h1 : ∀ j, a j * (v j d + rv j d) = ((a' j * v' j d + a' j * rv' j d : ℝ) : EReal) := by
    intro j
    rw [ha' j, hv' j d, hrv' j d, ← EReal.coe_add, ← EReal.coe_mul, mul_add]
  have h2 : ∀ j, a j * v j d = ((a' j * v' j d : ℝ) : EReal) := by
    intro j
    rw [ha' j, hv' j d, ← EReal.coe_mul]
  have h3 : ∀ j, a j * rv j d = ((a' j * rv' j d : ℝ) : EReal) := by
    intro j
    rw [ha' j, hrv' j d, ← EReal.coe_mul]
  rw [Finset.sum_congr rfl (fun j _ => h1 j), Finset.sum_congr rfl (fun j _ => h2 j),
    Finset.sum_congr rfl (fun j _ => h3 j), ← coe_finset_sum, ← coe_finset_sum, ← coe_finset_sum,
    ← EReal.coe_add, Finset.sum_add_distrib]

/-! ### The head -/

/-- One head: the folded arrangement equals the split arrangement on real inputs. -/
theorem headFolded_eq_headSplit {K D : Type} [Fintype K] [Fintype D] [Nonempty K]
    (c : EReal) (q : D → EReal) (k v rk rv : K → D → EReal)
    (hc : ∃ r : ℝ, c = (r : EReal)) (hq : ∀ e, ∃ r : ℝ, q e = (r : EReal))
    (hk : ∀ j e, ∃ r : ℝ, k j e = (r : EReal)) (hv : ∀ j e, ∃ r : ℝ, v j e = (r : EReal))
    (hrk : ∀ j e, ∃ r : ℝ, rk j e = (r : EReal)) (hrv : ∀ j e, ∃ r : ℝ, rv j e = (r : EReal)) (d : D) :
    headFolded c q k v rk rv d = headSplit c q k v rk rv d := by
  have hs : foldedScore c q k rk = splitScore c q k rk :=
    funext fun j => (foldedScore_eq_splitScore c q k rk hc hq hk hrk j).1
  unfold headFolded headSplit
  rw [hs]
  exact foldedOut_eq_splitOut _ v rv
    (weight_real _ (fun j => (foldedScore_eq_splitScore c q k rk hc hq hk hrk j).2)) hv hrv d

end Cert.RelAttn

end
-- ==== Proof.AttnJoin.lean ====
/-
  The folded and the split arrangements of the whole output array agree on real-valued inputs.

  `GF` is the output array with every head in the folded arrangement (what the kernel computes), `G` the same with every
  head in the split arrangement (what the reference computes). The scale both spell is the real 1/8. When every entry of
  the five argument arrays is a real number the two arrays are equal, head by head, by distributivity in the reals.
-/
import proofs.«112775_j2422361555012_2_alg».proof.Proof.AttnIdx
import proofs.«112775_j2422361555012_2_alg».proof.Proof.AttnAlgebra

noncomputable section

namespace Cert.RelAttn

open Idealize.ShloMosaic Idealize.ShloMosaic.ValueIdx

/-- The scale's pattern denotes the real 1/8. -/
theorem scale_eq : scale = ((1 / 8 : ℝ) : EReal) := by
  unfold scale
  simp [Ideal.ofBits, Ideal.ieee, -EReal.coe_mul]; norm_num

/-- The output array with every head in the folded arrangement. -/
def GF (x0 x1 x2 : FVec Ideal Arr3 .f32) (x3 x4 : FVec Ideal Tab .f32) : FVec Ideal Arr3 .f32 := fun i =>
  headAtFolded x0 x1 x2 x3 x4 ⟨(i 0).val, (i 0).isLt⟩ ⟨(i 1).val, (i 1).isLt⟩
    ⟨(i 2).val / 64, by have h2 : (i 2).val < 1024 := (i 2).isLt; omega⟩
    ⟨(i 2).val % 64, Nat.mod_lt _ (by decide)⟩

/-- `GF` at a position written by its coordinates. -/
theorem GF_at (x0 x1 x2 : FVec Ideal Arr3 .f32) (x3 x4 : FVec Ideal Tab .f32) (b : Fin 4) (s : Fin 1024) (h : Fin 16)
    (d : Fin 64) : GF x0 x1 x2 x3 x4 (at3 b s h d) = headAtFolded x0 x1 x2 x3 x4 b s h d := by
  have hh := h.isLt
  have hd := d.isLt
  have e1 : (⟨(h.val * 64 + d.val) / 64, by omega⟩ : Fin 16) = h := Fin.ext (by show (h.val * 64 + d.val) / 64 = h.val; omega)
  have e2 : (⟨(h.val * 64 + d.val) % 64, Nat.mod_lt _ (by decide)⟩ : Fin 64) = d :=
    Fin.ext (by show (h.val * 64 + d.val) % 64 = d.val; omega)
  show headAtFolded x0 x1 x2 x3 x4 b s ⟨(h.val * 64 + d.val) / 64, _⟩ ⟨(h.val * 64 + d.val) % 64, _⟩ = _
  rw [e1, e2]

/-- On real-valued arrays the folded array is the split one. -/
theorem GF_eq_G (x0 x1 x2 : FVec Ideal Arr3 .f32) (x3 x4 : FVec Ideal Tab .f32)
    (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (h4 : ∀ i, ∃ r : ℝ, x4 i = (r : EReal)) :
    GF x0 x1 x2 x3 x4 = G x0 x1 x2 x3 x4 := by
  funext i
  unfold GF G headAtFolded headAt
  exact headFolded_eq_headSplit scale _ _ _ _ _ ⟨_, scale_eq⟩ (fun e => h0 _) (fun j e => h1 _) (fun j e => h2 _)
    (fun j e => h3 _) (fun j e => h4 _) _

end Cert.RelAttn

end
-- ==== Proof.KernelCore.lean ====
/-
  One head's arithmetic on its 1024 × 64 operands, read at an index.

  `attendBlock qh kk vv` is the body's computation for one head once its three operands are formed: the scores
  `qh · kkᵀ` (a product into a zero accumulator), each row's maximum taken from `-∞`, the exponentials of the scores less
  that maximum, their row sums, the quotients, and the product of the quotients with `vv`. Read at row `r` and
  coordinate `d` it is the softmax weights of row `r`'s scores combined with column `d` of `vv`.
-/
import proofs.«112775_j2422361555012_2_alg».proof.Proof.Gen.KernelIdeal
import proofs.«112775_j2422361555012_2_alg».proof.Proof.AttnSpec
import Idealize.ShloMosaic.Lib.ValueIdx
import Idealize.ShloMosaic.Lib.ValueLayout
import Idealize.ShloMosaic.Lib.Pipeline.Value
import Idealize.ShloMosaic.PureOps.Ideal.Laws

noncomputable section

namespace Cert.RelAttn.Kern

open Cert.KernelIdeal Cert.RelAttn Idealize.ShloMosaic Idealize.ShloMosaic.ValueIdx
open Cert.KernelIdeal.Facts₀ Cert.KernelIdeal.Facts

/-- One head on its operands: scores, row maxima, exponentials, row sums, quotients, output. -/
def attendBlock (qh kk vv : FVec Ideal S1024x64 .bf16) : FVec Ideal S1024x64 .f32 :=
  have z : FVec Ideal S1024x1024 .f32 := constant S1024x1024 .f32 0x00000000#32
  have sc : FVec Ideal S1024x1024 .f32 := matmul dot_S1024x64_S1024x64_S1024x1024_1_1_0_0_n_n none qh kk z
  have mx : FVec Ideal S1024 .f32 := multiReduction .maximumf [1] S1024 sc 0xFF800000#32 reduces_S1024x1024_S1024 (.inl rfl) rfl
  have mxc : FVec Ideal S1024x1 .f32 := shapeCast S1024x1 mx shapeCasts_S1024_S1024x1
  have mxb : FVec Ideal S1024x1024 .f32 := broadcastTo S1024x1024 mxc broadcasts_S1024x1_S1024x1024
  have df : FVec Ideal S1024x1024 .f32 := subf sc mxb
  have ex : FVec Ideal S1024x1024 .f32 := exp df
  have sm : FVec Ideal S1024 .f32 := multiReduction .add [1] S1024 ex 0x00000000#32 reduces_S1024x1024_S1024 (.inl rfl) rfl
  have smc : FVec Ideal S1024x1 .f32 := shapeCast S1024x1 sm shapeCasts_S1024_S1024x1
  have smb : FVec Ideal S1024x1024 .f32 := broadcastTo S1024x1024 smc broadcasts_S1024x1_S1024x1024
  have qt : FVec Ideal S1024x1024 .f32 := divf ex smb
  have qtb : FVec Ideal S1024x1024 .bf16 := truncf .bf16 qt bitsLt_bf16_f32
  have z2 : FVec Ideal S1024x64 .f32 := constant S1024x64 .f32 0x00000000#32
  matmul dot_S1024x1024_S1024x64_S1024x64_1_0_0_1_n_n none qtb vv z2

/-- Row `r`'s scores against every key row. -/
def blockScore (qh kk : FVec Ideal S1024x64 .bf16) (r : Fin 1024) : Fin 1024 → EReal :=
  fun j => ∑ e : Fin 64, qh (ix2 r e) * kk (ix2 j e)

/-! ### Layout operations of a kept column, read at an index -/

variable {α : Type}

/-- A vector of length a cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index over row r of a reduction along the columns, with column j inserted, is (r, j). -/
theorem lift_row (r j : Fin 1024) : reduces_S1024x1024_S1024.lift (ix1 r) j = ix2 r j := by
  funext a
  refine Fin.ext ?_
  match a with
  | ⟨0, _⟩ => rfl
  | ⟨1, _⟩ => rfl

/-! ### The two products read at an index -/

theorem lhs_sc_0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide),
    dif_pos (show (0 : Fin S1024x64.rank) ∈ dot_S1024x64_S1024x64_S1024x1024_1_1_0_0_n_n.lhsNonContracting by decide)]
  rfl
theorem lhs_sc_1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
theorem rhs_sc_0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide),
    dif_pos (show (0 : Fin S1024x64.rank) ∈ dot_S1024x64_S1024x64_S1024x1024_1_1_0_0_n_n.rhsNonContracting by decide)]
  rfl
theorem rhs_sc_1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- The score product into the zero accumulator, read at (r, j): row r of the left operand against row j of the right. -/
theorem scores_at (qh kk : FVec Ideal S1024x64 .bf16) (r j : Fin 1024) :
    matmul dot_S1024x64_S1024x64_S1024x1024_1_1_0_0_n_n none qh kk (constant (F := Ideal) S1024x1024 .f32 0x00000000#32) (ix2 r j)
      = ∑ e : Fin 64, qh (ix2 r e) * kk (ix2 j e) := by
  refine (Ideal.matmul_constant_zero_apply dot_S1024x64_S1024x64_S1024x1024_1_1_0_0_n_n none qh kk (ix2 r j)).trans ?_
  rw [← Equiv.sum_comp (ValueIdx.contrEquiv1 dot_S1024x64_S1024x64_S1024x1024_1_1_0_0_n_n 64 rfl rfl).symm]
  refine Finset.sum_congr rfl fun e _ => ?_
  have hk := ValueIdx.contrEquiv1_symm_val dot_S1024x64_S1024x64_S1024x1024_1_1_0_0_n_n 64 rfl rfl e
  have el : dot_S1024x64_S1024x64_S1024x1024_1_1_0_0_n_n.lhsIdx (ix2 r j)
      ((ValueIdx.contrEquiv1 dot_S1024x64_S1024x64_S1024x1024_1_1_0_0_n_n 64 rfl rfl).symm e) = ix2 r e :=
    funext fun a => Fin.ext (by
      match a with
      | ⟨0, _⟩ => exact lhs_sc_0 _ _
      | ⟨1, _⟩ => exact (lhs_sc_1 _ _).trans hk)
  have er : dot_S1024x64_S1024x64_S1024x1024_1_1_0_0_n_n.rhsIdx (ix2 r j)
      ((ValueIdx.contrEquiv1 dot_S1024x64_S1024x64_S1024x1024_1_1_0_0_n_n 64 rfl rfl).symm e) = ix2 j e :=
    funext fun a => Fin.ext (by
      match a with
      | ⟨0, _⟩ => exact rhs_sc_0 _ _
      | ⟨1, _⟩ => exact (rhs_sc_1 _ _).trans hk)
  rw [el, er]

theorem lhs_out_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl
theorem lhs_out_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhs_out_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhs_out_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl

/-- The output product into the zero accumulator, read at (r, d): row r of the left operand against column d of the right. -/
theorem out_at (w : FVec Ideal S1024x1024 .bf16) (vv : FVec Ideal S1024x64 .bf16) (r : Fin 1024) (d : Fin 64) :
    matmul dot_S1024x1024_S1024x64_S1024x64_1_0_0_1_n_n none w vv (constant (F := Ideal) S1024x64 .f32 0x00000000#32) (ix2 r d)
      = ∑ j : Fin 1024, w (ix2 r j) * vv (ix2 j d) := by
  refine (Ideal.matmul_constant_zero_apply dot_S1024x1024_S1024x64_S1024x64_1_0_0_1_n_n none w vv (ix2 r d)).trans ?_
  rw [← Equiv.sum_comp (ValueIdx.contrEquiv1 dot_S1024x1024_S1024x64_S1024x64_1_0_0_1_n_n 1024 rfl rfl).symm]
  refine Finset.sum_congr rfl fun j _ => ?_
  have hk := ValueIdx.contrEquiv1_symm_val dot_S1024x1024_S1024x64_S1024x64_1_0_0_1_n_n 1024 rfl rfl j
  have el : dot_S1024x1024_S1024x64_S1024x64_1_0_0_1_n_n.lhsIdx (ix2 r d)
      ((ValueIdx.contrEquiv1 dot_S1024x1024_S1024x64_S1024x64_1_0_0_1_n_n 1024 rfl rfl).symm j) = ix2 r j :=
    funext fun a => Fin.ext (by
      match a with
      | ⟨0, _⟩ => exact lhs_out_0 _ _
      | ⟨1, _⟩ => exact (lhs_out_1 _ _).trans hk)
  have er : dot_S1024x1024_S1024x64_S1024x64_1_0_0_1_n_n.rhsIdx (ix2 r d)
      ((ValueIdx.contrEquiv1 dot_S1024x1024_S1024x64_S1024x64_1_0_0_1_n_n 1024 rfl rfl).symm j) = ix2 j d :=
    funext fun a => Fin.ext (by
      match a with
      | ⟨0, _⟩ => exact (rhs_out_0 _ _).trans hk
      | ⟨1, _⟩ => exact rhs_out_1 _ _)
  rw [el, er]

/-! ### The row maximum, the row sum and the quotients read at an index -/

/-- The word 0xFF800000 is minus infinity. -/
theorem ofBits_neg_inf : FloatOps.ofBits (F := Ideal) .f32 0xFF800000#32 = (⊥ : EReal) := by
  show Ideal.ofBits .f32 0xFF800000#32 = ⊥
  simp [Ideal.ofBits, Ideal.ieee]

/-- The maximum along the columns taken from minus infinity, read at row r: the maximum of the row. -/
theorem rowmax_at (sc : FVec Ideal S1024x1024 .f32) (r : Fin 1024) :
    multiReduction .maximumf [1] S1024 sc 0xFF800000#32 reduces_S1024x1024_S1024 (.inl rfl) rfl (ix1 r)
      = rowMax (fun j : Fin 1024 => sc (ix2 r j)) := by
  refine (Ideal.multiReduction_maximumf_single sc 0xFF800000#32 reduces_S1024x1024_S1024 (.inl rfl) rfl (ix1 r)).trans ?_
  rw [ofBits_neg_inf]
  have hf : (sc ∘ reduces_S1024x1024_S1024.lift (ix1 r)) = fun j : Fin 1024 => sc (ix2 r j) :=
    funext fun j => congrArg sc (lift_row r j)
  rw [hf]
  rfl

/-- The sum along the columns, read at row r: the sum of the row. -/
theorem rowsum_at (ex : FVec Ideal S1024x1024 .f32) (r : Fin 1024) :
    multiReduction .add [1] S1024 ex 0x00000000#32 reduces_S1024x1024_S1024 (.inl rfl) rfl (ix1 r)
      = ∑ j : Fin 1024, ex (ix2 r j) := by
  refine (Ideal.multiReduction_add_single ex 0x00000000#32 reduces_S1024x1024_S1024 (.inl rfl) rfl (ix1 r)).trans ?_
  exact Finset.sum_congr rfl fun j _ => congrArg ex (lift_row r j)

/-- The rows' maxima, kept as a column and spread back over the columns. -/
def rowMaxB (sc : FVec Ideal S1024x1024 .f32) : FVec Ideal S1024x1024 .f32 :=
  broadcastTo S1024x1024
    (shapeCast S1024x1 (multiReduction .maximumf [1] S1024 sc 0xFF800000#32 reduces_S1024x1024_S1024 (.inl rfl) rfl)
      shapeCasts_S1024_S1024x1) broadcasts_S1024x1_S1024x1024

/-- The rows' sums, kept as a column and spread back over the columns. -/
def rowSumB (ex : FVec Ideal S1024x1024 .f32) : FVec Ideal S1024x1024 .f32 :=
  broadcastTo S1024x1024
    (shapeCast S1024x1 (multiReduction .add [1] S1024 ex 0x00000000#32 reduces_S1024x1024_S1024 (.inl rfl) rfl)
      shapeCasts_S1024_S1024x1) broadcasts_S1024x1_S1024x1024

theorem rowMaxB_at (sc : FVec Ideal S1024x1024 .f32) (r j : Fin 1024) :
    rowMaxB sc (ix2 r j) = rowMax (fun j' : Fin 1024 => sc (ix2 r j')) := by
  unfold rowMaxB
  rw [broadcastTo_a1_ab_apply, shapeCast_a_a1_apply]
  exact rowmax_at sc r

theorem rowSumB_at (ex : FVec Ideal S1024x1024 .f32) (r j : Fin 1024) :
    rowSumB ex (ix2 r j) = ∑ j' : Fin 1024, ex (ix2 r j') := by
  unfold rowSumB
  rw [broadcastTo_a1_ab_apply, shapeCast_a_a1_apply]
  exact rowsum_at ex r

/-- The rows' softmax as the body computes it: exponentials of the scores less the row maximum, over their row sums. -/
def rowSoftmax (sc : FVec Ideal S1024x1024 .f32) : FVec Ideal S1024x1024 .bf16 :=
  truncf .bf16 (divf (exp (subf sc (rowMaxB sc))) (rowSumB (exp (subf sc (rowMaxB sc))))) bitsLt_bf16_f32

/-- The exponential of the score less the row maximum, read at (r, j). -/
theorem expShift_at (sc : FVec Ideal S1024x1024 .f32) (r j : Fin 1024) :
    (exp (subf sc (rowMaxB sc)) : FVec Ideal S1024x1024 .f32) (ix2 r j)
      = Ideal.exp (sc (ix2 r j) - rowMax (fun j' : Fin 1024 => sc (ix2 r j'))) := by
  show Ideal.exp (sc (ix2 r j) - rowMaxB sc (ix2 r j)) = _
  rw [rowMaxB_at]

/-- The softmax read at (r, j): the weight of key j in row r's scores. -/
theorem rowSoftmax_at (sc : FVec Ideal S1024x1024 .f32) (r j : Fin 1024) :
    rowSoftmax sc (ix2 r j) = weight (fun j' : Fin 1024 => sc (ix2 r j')) j := by
  unfold rowSoftmax weight
  rw [truncf_apply, divf_apply, rowSumB_at, expShift_at]
  exact congrArg _ (Finset.sum_congr rfl fun j' _ => expShift_at sc r j')

/-- The head is the output product of the softmax of the score product. -/
theorem attendBlock_eq (qh kk vv : FVec Ideal S1024x64 .bf16) :
    attendBlock qh kk vv
      = matmul dot_S1024x1024_S1024x64_S1024x64_1_0_0_1_n_n none
          (rowSoftmax (matmul dot_S1024x64_S1024x64_S1024x1024_1_1_0_0_n_n none qh kk
            (constant (F := Ideal) S1024x1024 .f32 0x00000000#32)))
          vv (constant (F := Ideal) S1024x64 .f32 0x00000000#32) := rfl

/-- The head's output at (r, d): the softmax weights of row `r`'s scores against column `d` of the values. -/
theorem attendBlock_at (qh kk vv : FVec Ideal S1024x64 .bf16) (r : Fin 1024) (d : Fin 64) :
    attendBlock qh kk vv (ix2 r d) = ∑ j : Fin 1024, weight (blockScore qh kk r) j * vv (ix2 j d) := by
  rw [attendBlock_eq, out_at]
  refine Finset.sum_congr rfl fun j _ => ?_
  rw [rowSoftmax_at]
  have hs : (fun j' : Fin 1024 => (matmul dot_S1024x64_S1024x64_S1024x1024_1_1_0_0_n_n none qh kk
      (constant (F := Ideal) S1024x1024 .f32 0x00000000#32)) (ix2 r j')) = blockScore qh kk r :=
    funext fun j' => scores_at qh kk r j'
  rw [hs]

end Cert.RelAttn.Kern

end
-- ==== Proof.KernelBlock.lean ====
/-
  The body's stored block, read at an index: one head of the folded attention.

  The body works on a [1, 1024, 128] block of each of the query, key and value arrays, two heads side by side (head h
  in columns 64 h … 64 h + 63), and on the first 1024 rows of the two tables. For each head it forms three 1024 × 64
  operands — the query columns; the key columns scaled with the key table added; the value columns with the value
  table added — and runs the one-head arithmetic on them; the two results are set side by side and stored. Read at
  row r and column 64 h + d the stored block is therefore head h's folded attention of row r, coordinate d.
-/
import proofs.«112775_j2422361555012_2_alg».proof.Proof.KernelCore
import proofs.«112775_j2422361555012_2_alg».proof.Proof.AttnIdx
import proofs.«112775_j2422361555012_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.RelAttn.Kern

open Cert.KernelIdeal Cert.RelAttn Idealize.ShloMosaic Idealize.ShloMosaic.ValueIdx
open Cert.KernelIdeal.Facts₀ Cert.KernelIdeal.Facts

/-! ## The three operands of one head, cut at column offset `o` -/

/-- The query operand: columns o … o + 63 of the query block. -/
def qOp (o : ℕ) (hs : S1024x128.Slices ![0, o] S1024x64) (v0 : Vec Ideal S1x1024x128 .f32) : FVec Ideal S1024x64 .bf16 :=
  truncf .bf16 (extractStridedSlice S1024x64 ![0, o] (Gen.k0_pay2 v0) hs) bitsLt_bf16_f32

/-- The key operand: columns o … o + 63 of the key block, scaled, with the key table added. -/
def kOp (o : ℕ) (hs : S1024x128.Slices ![0, o] S1024x64) (v2 : Vec Ideal S1x1024x128 .f32) (v6 : Vec Ideal S1024x64 .f32) :
    FVec Ideal S1024x64 .bf16 :=
  truncf .bf16 (addf (mulf (broadcast S1024x64 (Scalar.ofBits (F := Ideal) .f32 0x3E000000#32))
    (extractStridedSlice S1024x64 ![0, o] (Gen.k0_pay3 v2) hs)) (Gen.k0_pay5 v6)) bitsLt_bf16_f32

/-- The value operand: columns o … o + 63 of the value block with the value table added. -/
def vOp (o : ℕ) (hs : S1024x128.Slices ![0, o] S1024x64) (v4 : Vec Ideal S1x1024x128 .f32) (v8 : Vec Ideal S1024x64 .f32) :
    FVec Ideal S1024x64 .bf16 :=
  truncf .bf16 (addf (extractStridedSlice S1024x64 ![0, o] (Gen.k0_pay4 v4) hs) (Gen.k0_pay6 v8)) bitsLt_bf16_f32

/-- The query operand at (r, e) is the block at (0, r, c), c = o + e. -/
theorem qOp_at (o : ℕ) (hs : S1024x128.Slices ![0, o] S1024x64) (v0 : Vec Ideal S1x1024x128 .f32) (r : Fin 1024) (e : Fin 64)
    (c : Fin 128) (hc : c.val = o + e.val) : qOp o hs v0 (ix2 r e) = v0 (ix3 (0 : Fin 1) r c) := by
  show extractStridedSlice S1024x64 ![0, o] (Gen.k0_pay2 v0) hs (ix2 r e) = v0 (ix3 (0 : Fin 1) r c)
  refine (slice2_axis1_apply o _ hs r e c hc).trans ?_
  unfold Gen.k0_pay2
  exact shapeCast_1ab_ab_apply v0 _ r c

/-- The key operand at (j, e) is the scale times the block at (0, j, c), c = o + e, plus the key table at (j, e). -/
theorem kOp_at (o : ℕ) (hs : S1024x128.Slices ![0, o] S1024x64) (v2 : Vec Ideal S1x1024x128 .f32) (v6 : Vec Ideal S1024x64 .f32)
    (j : Fin 1024) (e : Fin 64) (c : Fin 128) (hc : c.val = o + e.val) :
    kOp o hs v2 v6 (ix2 j e) = scale * v2 (ix3 (0 : Fin 1) j c) + v6 (ix2 j e) := by
  have h1 : Gen.k0_pay5 v6 = v6 := by unfold Gen.k0_pay5; exact shapeCast_self v6 _
  have h2 : extractStridedSlice S1024x64 ![0, o] (Gen.k0_pay3 v2) hs (ix2 j e) = v2 (ix3 (0 : Fin 1) j c) := by
    refine (slice2_axis1_apply o _ hs j e c hc).trans ?_
    unfold Gen.k0_pay3
    exact shapeCast_1ab_ab_apply v2 _ j c
  -- at the extended reals the product, the sum and the change of format read through; the scalar 0x3E000000 is the scale
  show scale * extractStridedSlice S1024x64 ![0, o] (Gen.k0_pay3 v2) hs (ix2 j e) + Gen.k0_pay5 v6 (ix2 j e)
      = scale * v2 (ix3 (0 : Fin 1) j c) + v6 (ix2 j e)
  rw [h2, h1]

/-- The value operand at (j, e) is the block at (0, j, c), c = o + e, plus the value table at (j, e). -/
theorem vOp_at (o : ℕ) (hs : S1024x128.Slices ![0, o] S1024x64) (v4 : Vec Ideal S1x1024x128 .f32) (v8 : Vec Ideal S1024x64 .f32)
    (j : Fin 1024) (e : Fin 64) (c : Fin 128) (hc : c.val = o + e.val) :
    vOp o hs v4 v8 (ix2 j e) = v4 (ix3 (0 : Fin 1) j c) + v8 (ix2 j e) := by
  have h1 : Gen.k0_pay6 v8 = v8 := by unfold Gen.k0_pay6; exact shapeCast_self v8 _
  have h2 : extractStridedSlice S1024x64 ![0, o] (Gen.k0_pay4 v4) hs (ix2 j e) = v4 (ix3 (0 : Fin 1) j c) := by
    refine (slice2_axis1_apply o _ hs j e c hc).trans ?_
    unfold Gen.k0_pay4
    exact shapeCast_1ab_ab_apply v4 _ j c
  show extractStridedSlice S1024x64 ![0, o] (Gen.k0_pay4 v4) hs (ix2 j e) + Gen.k0_pay6 v8 (ix2 j e)
      = v4 (ix3 (0 : Fin 1) j c) + v8 (ix2 j e)
  rw [h2, h1]

/-! ## One head on the operands cut at `o` is the folded head on those columns -/

/-- The one-head arithmetic on the operands cut at offset `o`, at (r, d): the folded attention over the columns
    `col e = o + e` of the three blocks and the two tables. -/
theorem head_at (o : ℕ) (hs : S1024x128.Slices ![0, o] S1024x64) (v0 v2 v4 : Vec Ideal S1x1024x128 .f32)
    (v6 v8 : Vec Ideal S1024x64 .f32) (r : Fin 1024) (d : Fin 64) (col : Fin 64 → Fin 128)
    (hcol : ∀ e, (col e).val = o + e.val) :
    attendBlock (qOp o hs v0) (kOp o hs v2 v6) (vOp o hs v4 v8) (ix2 r d)
      = headFolded scale (fun e : Fin 64 => v0 (ix3 (0 : Fin 1) r (col e)))
          (fun (j : Fin 1024) (e : Fin 64) => v2 (ix3 (0 : Fin 1) j (col e)))
          (fun (j : Fin 1024) (e : Fin 64) => v4 (ix3 (0 : Fin 1) j (col e)))
          (fun (j : Fin 1024) (e : Fin 64) => v6 (ix2 j e)) (fun (j : Fin 1024) (e : Fin 64) => v8 (ix2 j e)) d := by
  refine (attendBlock_at _ _ _ r d).trans ?_
  unfold headFolded foldedOut
  -- row r's scores are the folded scores
  have hsc : blockScore (qOp o hs v0) (kOp o hs v2 v6) r
      = foldedScore scale (fun e : Fin 64 => v0 (ix3 (0 : Fin 1) r (col e)))
          (fun (j : Fin 1024) (e : Fin 64) => v2 (ix3 (0 : Fin 1) j (col e)))
          (fun (j : Fin 1024) (e : Fin 64) => v6 (ix2 j e)) := by
    funext j
    unfold blockScore foldedScore
    refine Finset.sum_congr rfl fun e _ => ?_
    rw [qOp_at o hs v0 r e (col e) (hcol e), kOp_at o hs v2 v6 j e (col e) (hcol e)]
  rw [hsc]
  refine Finset.sum_congr rfl fun j _ => ?_
  rw [vOp_at o hs v4 v8 j d (col d) (hcol d)]

/-! ## The printed chains are the one-head arithmetic on those operands -/

/-- Head 0's printed chain is the one-head arithmetic on the operands cut at column 0. -/
theorem pay7_eq (v0 v2 v4 : Vec Ideal S1x1024x128 .f32) (v6 v8 : Vec Ideal S1024x64 .f32) :
    Gen.k0_pay7 v0 v2 v4 v6 v8
      = attendBlock (qOp 0 slices_S1024x128_o0_0_S1024x64 v0) (kOp 0 slices_S1024x128_o0_0_S1024x64 v2 v6)
          (vOp 0 slices_S1024x128_o0_0_S1024x64 v4 v8) := rfl

/-- The stored block is the two heads side by side: head 0's result as given, head 1's the one-head arithmetic on
    its operands, viewed [1, 1024, 128]. -/
theorem pay1_eq (v9 v31 v32 v34 : FVec Ideal S1024x64 .f32) (v38 : FVec Ideal S1024x64 .bf16) :
    Gen.k0_pay1 v9 v31 v32 v34 v38
      = shapeCast S1x1024x128 (concatenate S1024x128 1 [⟨S1024x64, v31⟩,
          ⟨S1024x64, attendBlock (truncf .bf16 v32 bitsLt_bf16_f32) v38 (truncf .bf16 (addf v34 v9) bitsLt_bf16_f32)⟩]
          concatenates_S1024x64_S1024x64_S1024x128_d1) shapeCasts_S1024x128_S1x1024x128 := rfl

/-- The operands the body hands to head 1 are the operands cut at column 64. -/
theorem q1_eq (v0 : Vec Ideal S1x1024x128 .f32) :
    truncf .bf16 (Gen.k0_pay8 v0) bitsLt_bf16_f32 = qOp 64 slices_S1024x128_o0_64_S1024x64 v0 := rfl
theorem k1_eq (v2 : Vec Ideal S1x1024x128 .f32) (v6 : Vec Ideal S1024x64 .f32) :
    Gen.k0_pay10 v2 v6 = kOp 64 slices_S1024x128_o0_64_S1024x64 v2 v6 := rfl
theorem v1_eq (v4 : Vec Ideal S1x1024x128 .f32) (v8 : Vec Ideal S1024x64 .f32) :
    truncf .bf16 (addf (Gen.k0_pay9 v4) (Gen.k0_pay6 v8)) bitsLt_bf16_f32 = vOp 64 slices_S1024x128_o0_64_S1024x64 v4 v8 := rfl

/-! ## Two [1024, 64] pieces side by side, viewed [1, 1024, 128], at an index -/

/-- At a column below 64 the side-by-side block reads the first piece. -/
theorem sideBySide_lo (A B : FVec Ideal S1024x64 .f32) (r : Fin 1024) (c : Fin 128) (e : Fin 64) (hc : c.val = e.val) :
    shapeCast S1x1024x128 (concatenate S1024x128 1 [⟨S1024x64, A⟩, ⟨S1024x64, B⟩] concatenates_S1024x64_S1024x64_S1024x128_d1)
        shapeCasts_S1024x128_S1x1024x128 (ix3 (0 : Fin 1) r c) = A (ix2 r e) := by
  refine (shapeCast_ab_1ab_apply _ _ (0 : Fin 1) r c).trans ?_
  refine concatenate_pair_apply_left (1 : Fin S1024x128.rank) A B _ (ix2 r c) rfl (ix2 r e) fun b => ?_
  match b with
  | ⟨0, _⟩ => rfl
  | ⟨1, _⟩ => exact hc.symm

/-- At a column 64 + e the side-by-side block reads the second piece at column e. -/
theorem sideBySide_hi (A B : FVec Ideal S1024x64 .f32) (r : Fin 1024) (c : Fin 128) (e : Fin 64) (hc : c.val = 64 + e.val) :
    shapeCast S1x1024x128 (concatenate S1024x128 1 [⟨S1024x64, A⟩, ⟨S1024x64, B⟩] concatenates_S1024x64_S1024x64_S1024x128_d1)
        shapeCasts_S1024x128_S1x1024x128 (ix3 (0 : Fin 1) r c) = B (ix2 r e) := by
  refine (shapeCast_ab_1ab_apply _ _ (0 : Fin 1) r c).trans ?_
  refine concatenate_pair_apply_right (1 : Fin S1024x128.rank) A B _ (ix2 r c) rfl rfl (ix2 r e) (fun b hb => ?_) ?_
  · match b, hb with
    | ⟨0, _⟩, _ => rfl
    | ⟨1, _⟩, hb => exact absurd rfl hb
  · show e.val + 64 = c.val
    omega

/-! ## The stored block at an index -/

/-- THE STORED BLOCK at row r, column 64 h + d: head h's folded attention of row r, coordinate d, over columns
    64 h … 64 h + 63 of the three blocks and the two tables. -/
theorem payload_at (v0 v2 v4 : Vec Ideal S1x1024x128 .f32) (v6 v8 : Vec Ideal S1024x64 .f32) (r : Fin 1024) (h : Fin 2) (d : Fin 64) :
    Cert.KernelIdeal.Gen.k0_pay1 (Cert.KernelIdeal.Gen.k0_pay6 v8) (Cert.KernelIdeal.Gen.k0_pay7 v0 v2 v4 v6 v8) (Cert.KernelIdeal.Gen.k0_pay8 v0) (Cert.KernelIdeal.Gen.k0_pay9 v4) (Cert.KernelIdeal.Gen.k0_pay10 v2 v6)
        (ix3 (0 : Fin 1) r (⟨h.val * 64 + d.val, by have := h.isLt; have := d.isLt; omega⟩ : Fin 128))
      = headFolded scale (fun e : Fin 64 => v0 (ix3 (0 : Fin 1) r (⟨h.val * 64 + e.val, by have := h.isLt; have := e.isLt; omega⟩ : Fin 128)))
          (fun (j : Fin 1024) (e : Fin 64) => v2 (ix3 (0 : Fin 1) j (⟨h.val * 64 + e.val, by have := h.isLt; have := e.isLt; omega⟩ : Fin 128)))
          (fun (j : Fin 1024) (e : Fin 64) => v4 (ix3 (0 : Fin 1) j (⟨h.val * 64 + e.val, by have := h.isLt; have := e.isLt; omega⟩ : Fin 128)))
          (fun (j : Fin 1024) (e : Fin 64) => v6 (ix2 j e)) (fun (j : Fin 1024) (e : Fin 64) => v8 (ix2 j e)) d := by
  rw [pay1_eq]
  match h with
  | ⟨0, h0⟩ =>
    -- column d of the first piece: head 0
    refine (sideBySide_lo _ _ r _ d (by show 0 * 64 + d.val = d.val; omega)).trans ?_
    rw [pay7_eq]
    exact head_at 0 _ v0 v2 v4 v6 v8 r d _ (fun e => by show 0 * 64 + e.val = 0 + e.val; omega)
  | ⟨1, h1⟩ =>
    -- column 64 + d: column d of the second piece, head 1
    refine (sideBySide_hi _ _ r _ d (by show 1 * 64 + d.val = 64 + d.val; omega)).trans ?_
    rw [q1_eq, k1_eq, v1_eq]
    exact head_at 64 _ v0 v2 v4 v6 v8 r d _ (fun e => by show 1 * 64 + e.val = 64 + e.val; omega)

end Cert.RelAttn.Kern

end
-- ==== Proof.KernelArray.lean ====
/-
  The kernel's output array is `GF` of the argument arrays.

  The grid has 4 × 8 points. Point (b, p) stages, of each of the query, key and value arrays, the block of batch `b`, all
  1024 positions, columns [128 p, 128 p + 128) — two neighbouring heads, 2 p and 2 p + 1 —, and the whole of the two
  tables' first 1024 rows; it writes back the same block of the output. An element (0, r, 64 h' + d) of the block a point
  writes is head 2 p + h', output coordinate d, for the query at position r: the value of `GF` at (b, r, 128 p + 64 h' + d).
  The 32 blocks tile the output array (the point covering (b, r, c) is (b, c / 128)), so the array ends holding `GF`.
-/
import proofs.«112775_j2422361555012_2_alg».proof.Proof.Gen.KernelIdeal.Value
import proofs.«112775_j2422361555012_2_alg».proof.Proof.AttnJoin
import proofs.«112775_j2422361555012_2_alg».proof.Proof.KernelBlock
import Idealize.ShloMosaic.Lib.Pipeline.Value
import Idealize.ShloMosaic.Lib.StableHlo.Run

noncomputable section

namespace Cert.RelAttn.Kern

open Cert.KernelIdeal Cert.KernelIdeal.Value Cert.RelAttn
open Cert.KernelIdeal.Facts₀ Cert.KernelIdeal.Facts
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## One element of a point's result -/

/-- If a point's five blocks are the blocks (b, ·, [128 p, 128 p + 128)) of three arrays and the first 1024 rows of two
    tables, element (0, r, 64 h' + d) of its result is `GF` of those arrays at (b, r, 128 p + 64 h' + d). -/
theorem point_eq (v0 v2 v4 : Vec Ideal S1x1024x128 .f32) (v6 v8 : Vec Ideal S1024x64 .f32)
    (x0 x1 x2 : FVec Ideal Arr3 .f32) (x3 x4 : FVec Ideal Tab .f32) (b p : Nat) (hb : b < 4) (hp : p < 8)
    (e0 : ∀ (r : Fin 1024) (cl : Fin 128), v0 (ix3 (0 : Fin 1) r cl)
      = x0 (ix3 (⟨b, hb⟩ : Fin 4) r (⟨p * 128 + cl.val, by have := cl.isLt; omega⟩ : Fin 1024)))
    (e1 : ∀ (r : Fin 1024) (cl : Fin 128), v2 (ix3 (0 : Fin 1) r cl)
      = x1 (ix3 (⟨b, hb⟩ : Fin 4) r (⟨p * 128 + cl.val, by have := cl.isLt; omega⟩ : Fin 1024)))
    (e2 : ∀ (r : Fin 1024) (cl : Fin 128), v4 (ix3 (0 : Fin 1) r cl)
      = x2 (ix3 (⟨b, hb⟩ : Fin 4) r (⟨p * 128 + cl.val, by have := cl.isLt; omega⟩ : Fin 1024)))
    (e3 : ∀ (j : Fin 1024) (e : Fin 64), v6 (ix2 j e) = x3 (row j e))
    (e4 : ∀ (j : Fin 1024) (e : Fin 64), v8 (ix2 j e) = x4 (row j e))
    (r : Fin 1024) (h' : Fin 2) (d : Fin 64) :
    Gen.k0_pay1 (Gen.k0_pay6 v8) (Gen.k0_pay7 v0 v2 v4 v6 v8) (Gen.k0_pay8 v0) (Gen.k0_pay9 v4) (Gen.k0_pay10 v2 v6)
        (ix3 (0 : Fin 1) r (⟨h'.val * 64 + d.val, by have := h'.isLt; have := d.isLt; omega⟩ : Fin 128))
      = GF x0 x1 x2 x3 x4 (ix3 (⟨b, hb⟩ : Fin 4) r
          (⟨p * 128 + (h'.val * 64 + d.val), by have := h'.isLt; have := d.isLt; omega⟩ : Fin 1024)) := by
  have hh := h'.isLt
  have hd := d.isLt
  -- the head this element belongs to
  have hH : 2 * p + h'.val < 16 := by omega
  have pos : ∀ (j : Fin 1024) (e : Fin 64),
      (ix3 (⟨b, hb⟩ : Fin 4) j (⟨p * 128 + (h'.val * 64 + e.val), by have := e.isLt; omega⟩ : Fin 1024) : Arr3.Idx)
        = at3 ⟨b, hb⟩ j ⟨2 * p + h'.val, hH⟩ e := fun j e => funext fun a => Fin.ext (by
    have he := e.isLt
    match a with
    | ⟨0, _⟩ => rfl
    | ⟨1, _⟩ => rfl
    | ⟨2, _⟩ => show p * 128 + (h'.val * 64 + e.val) = (2 * p + h'.val) * 64 + e.val; omega)
  have q_eq : (fun e : Fin 64 => v0 (ix3 (0 : Fin 1) r (⟨h'.val * 64 + e.val, by have := e.isLt; omega⟩ : Fin 128)))
      = fun e => x0 (at3 ⟨b, hb⟩ r ⟨2 * p + h'.val, hH⟩ e) :=
    funext fun e => (e0 r _).trans (congrArg x0 (pos r e))
  have k_eq : (fun (j : Fin 1024) (e : Fin 64) => v2 (ix3 (0 : Fin 1) j (⟨h'.val * 64 + e.val, by have := e.isLt; omega⟩ : Fin 128)))
      = fun j e => x1 (at3 ⟨b, hb⟩ j ⟨2 * p + h'.val, hH⟩ e) :=
    funext fun j => funext fun e => (e1 j _).trans (congrArg x1 (pos j e))
  have v_eq : (fun (j : Fin 1024) (e : Fin 64) => v4 (ix3 (0 : Fin 1) j (⟨h'.val * 64 + e.val, by have := e.isLt; omega⟩ : Fin 128)))
      = fun j e => x2 (at3 ⟨b, hb⟩ j ⟨2 * p + h'.val, hH⟩ e) :=
    funext fun j => funext fun e => (e2 j _).trans (congrArg x2 (pos j e))
  have rk_eq : (fun (j : Fin 1024) (e : Fin 64) => v6 (ix2 j e)) = fun j e => x3 (row j e) :=
    funext fun j => funext fun e => e3 j e
  have rv_eq : (fun (j : Fin 1024) (e : Fin 64) => v8 (ix2 j e)) = fun j e => x4 (row j e) :=
    funext fun j => funext fun e => e4 j e
  rw [payload_at, q_eq, k_eq, v_eq, rk_eq, rv_eq, pos r d, GF_at]
  rfl

/-! ## The printed index maps over the grid -/

/-- Decided over the 32 points: the query, key and value windows move with the output window; the tables' windows stay at
    the origin; the output's block index is (b, 0, p) with b < 4 and p < 8. -/
theorem idx_facts : ∀ t : Fin cfg0.N,
    win0_0.index t (0 : Fin 3) = win0_5.index t (0 : Fin 3) ∧ win0_0.index t (1 : Fin 3) = 0
    ∧ win0_0.index t (2 : Fin 3) = win0_5.index t (2 : Fin 3)
    ∧ win0_1.index t (0 : Fin 3) = win0_5.index t (0 : Fin 3) ∧ win0_1.index t (1 : Fin 3) = 0
    ∧ win0_1.index t (2 : Fin 3) = win0_5.index t (2 : Fin 3)
    ∧ win0_2.index t (0 : Fin 3) = win0_5.index t (0 : Fin 3) ∧ win0_2.index t (1 : Fin 3) = 0
    ∧ win0_2.index t (2 : Fin 3) = win0_5.index t (2 : Fin 3)
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) < 4 ∧ win0_5.index t (1 : Fin 3) = 0 ∧ win0_5.index t (2 : Fin 3) < 8 :=
  (by decide +kernel : ∀ t : Fin grid0.N, _)

/-- Every block (b, 0, p) of the output is some point's. -/
theorem idx_onto : ∀ (q0 : Fin 4) (q2 : Fin 8), ∃ t : Fin cfg0.N, win0_5.index t = ![q0.val, 0, q2.val] :=
  (by decide +kernel : ∀ (q0 : Fin 4) (q2 : Fin 8), ∃ t : Fin grid0.N, win0_5.index t = ![q0.val, 0, q2.val])

/-! ## The tables as the region finds them: the first 1024 rows of the arguments -/

theorem keyTable_entry (c : Dev nD) : (Gen.V m c main_v0 : S1024x64.Idx → EReal)
    = extractStridedSlice S1024x64 ![0, 0] (m ((c : Thread nD τ).loc main_arg3)) slices_S2048x64_S1024x64_0_0 := by
  dsimp only [Gen.V, Gen.hostOps0]; after_results

theorem valueTable_entry (c : Dev nD) : (Gen.V m c main_v1 : S1024x64.Idx → EReal)
    = extractStridedSlice S1024x64 ![0, 0] (m ((c : Thread nD τ).loc main_arg4)) slices_S2048x64_S1024x64_0_0 := by
  dsimp only [Gen.V, Gen.hostOps0]; after_results

/-! ## What a point writes back -/

/-- WHAT POINT `t` WRITES BACK is block `t` of `GF` of the argument arrays. -/
theorem flushed_eq (c : Dev nD) (t : Fin cfg0.N) :
    (Gen.dats m 0 c).flushed 5 t = ((cfg0.win 5).blk t).view.read (Elt Ideal)
      (GF (m ((c : Thread nD τ).loc main_arg0)) (m ((c : Thread nD τ).loc main_arg1)) (m ((c : Thread nD τ).loc main_arg2))
        (m ((c : Thread nD τ).loc main_arg3)) (m ((c : Thread nD τ).loc main_arg4))) := by
  rw [flushed5]
  unfold Gen.out0_5
  rw [View.canon_unit_zero hz3]
  simp only [View.ld_unit_zero (S := S1x1024x128) hz3, View.ld_unit_zero (S := S1024x64) hz2]
  obtain ⟨a00, a01, a02, a10, a11, a12, a20, a21, a22, a30, a31, a40, a41, hb, o1, hp⟩ := idx_facts t
  -- the three large windows' blocks read off the arrays
  have e0 : ∀ (r : Fin 1024) (cl : Fin 128), Gen.iblk m c 0 t (ix3 (0 : Fin 1) r cl)
      = m ((c : Thread nD τ).loc main_arg0) (ix3 (⟨win0_5.index t (0 : Fin 3), hb⟩ : Fin 4) r
          (⟨win0_5.index t (2 : Fin 3) * 128 + cl.val, by have := cl.isLt; omega⟩ : Fin 1024)) := fun r cl => by
    have hr := r.isLt; have hcl := cl.isLt
    show Gen.V m c main_arg0 (((cfg0.win 0).blk t).view.emb (ix3 (0 : Fin 1) r cl)) = _
    rw [Gen.V_main_arg0]
    refine congrArg _ (funext fun a => Fin.ext ?_)
    match a with
    | ⟨0, _⟩ => show win0_0.index t (0 : Fin 3) * 1 + 1 * 0 = win0_5.index t (0 : Fin 3); omega
    | ⟨1, _⟩ => show win0_0.index t (1 : Fin 3) * 1024 + 1 * r.val = r.val; omega
    | ⟨2, _⟩ => show win0_0.index t (2 : Fin 3) * 128 + 1 * cl.val = win0_5.index t (2 : Fin 3) * 128 + cl.val; omega
  have e1 : ∀ (r : Fin 1024) (cl : Fin 128), Gen.iblk m c 1 t (ix3 (0 : Fin 1) r cl)
      = m ((c : Thread nD τ).loc main_arg1) (ix3 (⟨win0_5.index t (0 : Fin 3), hb⟩ : Fin 4) r
          (⟨win0_5.index t (2 : Fin 3) * 128 + cl.val, by have := cl.isLt; omega⟩ : Fin 1024)) := fun r cl => by
    have hr := r.isLt; have hcl := cl.isLt
    show Gen.V m c main_arg1 (((cfg0.win 1).blk t).view.emb (ix3 (0 : Fin 1) r cl)) = _
    rw [Gen.V_main_arg1]
    refine congrArg _ (funext fun a => Fin.ext ?_)
    match a with
    | ⟨0, _⟩ => show win0_1.index t (0 : Fin 3) * 1 + 1 * 0 = win0_5.index t (0 : Fin 3); omega
    | ⟨1, _⟩ => show win0_1.index t (1 : Fin 3) * 1024 + 1 * r.val = r.val; omega
    | ⟨2, _⟩ => show win0_1.index t (2 : Fin 3) * 128 + 1 * cl.val = win0_5.index t (2 : Fin 3) * 128 + cl.val; omega
  have e2 : ∀ (r : Fin 1024) (cl : Fin 128), Gen.iblk m c 2 t (ix3 (0 : Fin 1) r cl)
      = m ((c : Thread nD τ).loc main_arg2) (ix3 (⟨win0_5.index t (0 : Fin 3), hb⟩ : Fin 4) r
          (⟨win0_5.index t (2 : Fin 3) * 128 + cl.val, by have := cl.isLt; omega⟩ : Fin 1024)) := fun r cl => by
    have hr := r.isLt; have hcl := cl.isLt
    show Gen.V m c main_arg2 (((cfg0.win 2).blk t).view.emb (ix3 (0 : Fin 1) r cl)) = _
    rw [Gen.V_main_arg2]
    refine congrArg _ (funext fun a => Fin.ext ?_)
    match a with
    | ⟨0, _⟩ => show win0_2.index t (0 : Fin 3) * 1 + 1 * 0 = win0_5.index t (0 : Fin 3); omega
    | ⟨1, _⟩ => show win0_2.index t (1 : Fin 3) * 1024 + 1 * r.val = r.val; omega
    | ⟨2, _⟩ => show win0_2.index t (2 : Fin 3) * 128 + 1 * cl.val = win0_5.index t (2 : Fin 3) * 128 + cl.val; omega
  -- the two tables' blocks: the first 1024 rows of the arguments
  have e3 : ∀ (j : Fin 1024) (e : Fin 64), Gen.iblk m c 3 t (ix2 j e) = m ((c : Thread nD τ).loc main_arg3) (row j e) :=
    fun j e => by
    have hj := j.isLt; have he := e.isLt
    show (Gen.V m c main_v0 : S1024x64.Idx → EReal) (((cfg0.win 3).blk t).view.emb (ix2 j e)) = _
    rw [keyTable_entry]
    exact extractStridedSlice_apply ![0, 0] (m ((c : Thread nD τ).loc main_arg3)) slices_S2048x64_S1024x64_0_0 _ (row j e)
      (fun a => match a with
        | ⟨0, _⟩ => by show j.val = 0 + (win0_3.index t (0 : Fin 2) * 1024 + 1 * j.val); omega
        | ⟨1, _⟩ => by show e.val = 0 + (win0_3.index t (1 : Fin 2) * 64 + 1 * e.val); omega)
  have e4 : ∀ (j : Fin 1024) (e : Fin 64), Gen.iblk m c 4 t (ix2 j e) = m ((c : Thread nD τ).loc main_arg4) (row j e) :=
    fun j e => by
    have hj := j.isLt; have he := e.isLt
    show (Gen.V m c main_v1 : S1024x64.Idx → EReal) (((cfg0.win 4).blk t).view.emb (ix2 j e)) = _
    rw [valueTable_entry]
    exact extractStridedSlice_apply ![0, 0] (m ((c : Thread nD τ).loc main_arg4)) slices_S2048x64_S1024x64_0_0 _ (row j e)
      (fun a => match a with
        | ⟨0, _⟩ => by show j.val = 0 + (win0_4.index t (0 : Fin 2) * 1024 + 1 * j.val); omega
        | ⟨1, _⟩ => by show e.val = 0 + (win0_4.index t (1 : Fin 2) * 64 + 1 * e.val); omega)
  funext y
  have hy0 : (y 0).val < 1 := (y 0).isLt
  have hy1 : (y 1).val < 1024 := (y 1).isLt
  have hy2 : (y 2).val < 128 := (y 2).isLt
  -- the element's coordinates: row r, head h' of the pair, coordinate d
  have hyx : (y : S1x1024x128.Idx) = ix3 (0 : Fin 1) (⟨(y 1).val, hy1⟩ : Fin 1024)
      (⟨(⟨(y 2).val / 64, by omega⟩ : Fin 2).val * 64 + (⟨(y 2).val % 64, Nat.mod_lt _ (by decide)⟩ : Fin 64).val,
        by show (y 2).val / 64 * 64 + (y 2).val % 64 < 128; omega⟩ : Fin 128) := funext fun a => Fin.ext (by
    match a with
    | ⟨0, _⟩ => show (y 0).val = 0; omega
    | ⟨1, _⟩ => rfl
    | ⟨2, _⟩ => show (y 2).val = (y 2).val / 64 * 64 + (y 2).val % 64; omega)
  refine (congrArg (Gen.k0_pay1 (Gen.k0_pay6 (Gen.iblk m c 4 t))
      (Gen.k0_pay7 (Gen.iblk m c 0 t) (Gen.iblk m c 1 t) (Gen.iblk m c 2 t) (Gen.iblk m c 3 t) (Gen.iblk m c 4 t))
      (Gen.k0_pay8 (Gen.iblk m c 0 t)) (Gen.k0_pay9 (Gen.iblk m c 2 t)) (Gen.k0_pay10 (Gen.iblk m c 1 t) (Gen.iblk m c 3 t))) hyx).trans ?_
  refine (point_eq (Gen.iblk m c 0 t) (Gen.iblk m c 1 t) (Gen.iblk m c 2 t) (Gen.iblk m c 3 t) (Gen.iblk m c 4 t)
    (m ((c : Thread nD τ).loc main_arg0)) (m ((c : Thread nD τ).loc main_arg1)) (m ((c : Thread nD τ).loc main_arg2))
    (m ((c : Thread nD τ).loc main_arg3)) (m ((c : Thread nD τ).loc main_arg4))
    (win0_5.index t (0 : Fin 3)) (win0_5.index t (2 : Fin 3)) hb hp e0 e1 e2 e3 e4
    (⟨(y 1).val, hy1⟩ : Fin 1024) (⟨(y 2).val / 64, by omega⟩ : Fin 2) (⟨(y 2).val % 64, Nat.mod_lt _ (by decide)⟩ : Fin 64)).trans ?_
  show GF _ _ _ _ _ _ = GF _ _ _ _ _ (((cfg0.win 5).blk t).view.emb y)
  refine congrArg _ (funext fun a => Fin.ext ?_)
  match a with
  | ⟨0, _⟩ => show win0_5.index t (0 : Fin 3) = win0_5.index t (0 : Fin 3) * 1 + 1 * (y 0).val; omega
  | ⟨1, _⟩ => show (y 1).val = win0_5.index t (1 : Fin 3) * 1024 + 1 * (y 1).val; omega
  | ⟨2, _⟩ => show win0_5.index t (2 : Fin 3) * 128 + ((y 2).val / 64 * 64 + (y 2).val % 64)
      = win0_5.index t (2 : Fin 3) * 128 + 1 * (y 2).val; omega

/-! ## The blocks tile the output array -/

/-- An index of the output array is in point `t`'s block iff each coordinate is in the block's range on its axis. -/
theorem mem_blk (t : Fin cfg0.N) (i : S4x1024x1024.Idx) :
    i ∈ ((cfg0.win 5).blk t).view.set ↔ ∀ a : Fin 3, win0_5.index t a * S1x1024x128.size a ≤ (i a).val
      ∧ (i a).val < win0_5.index t a * S1x1024x128.size a + S1x1024x128.size a := by
  show i ∈ ((View.whole main_v2).slice (win0_5.rect t)).set ↔ _
  rw [View.set_slice_whole, Rect.mem_set_unit]
  exact Iff.rfl

/-- Every index (b, r, c) of the output array is in the block of the point (b, c / 128). -/
theorem cover (i : S4x1024x1024.Idx) :
    ∃ t : Fin cfg0.N, (cfg0.win 5).flush t = true ∧ i ∈ ((cfg0.win 5).blk t).view.set := by
  have h0 : (i 0).val < 4 := (i 0).isLt
  have h1 : (i 1).val < 1024 := (i 1).isLt
  have h2 : (i 2).val < 1024 := (i 2).isLt
  obtain ⟨t, ht⟩ := idx_onto ⟨(i 0).val, h0⟩ ⟨(i 2).val / 128, by omega⟩
  have q0 : win0_5.index t (0 : Fin 3) = (i 0).val := congrFun ht 0
  have q1 : win0_5.index t (1 : Fin 3) = 0 := congrFun ht 1
  have q2 : win0_5.index t (2 : Fin 3) = (i 2).val / 128 := congrFun ht 2
  refine ⟨t, Gen.flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 128 ≤ (i 2).val ∧ (i 2).val < win0_5.index t (2 : Fin 3) * 128 + 128; omega

/-- THE OUTPUT ARRAY after the run is `GF` of the argument arrays. -/
theorem final (c : Dev nD) : (Gen.dats m 0 c).arrAt 5 cfg0.N
    = GF (m ((c : Thread nD τ).loc main_arg0)) (m ((c : Thread nD τ).loc main_arg1)) (m ((c : Thread nD τ).loc main_arg2))
        (m ((c : Thread nD τ).loc main_arg3)) (m ((c : Thread nD τ).loc main_arg4)) :=
  (Gen.dats m 0 c).arrAt_eq_of_cover 5 _ (fun t _ => flushed_eq m c t) cover

/-! ## The run, read -/

/-- Every weakly fair execution of the kernel's program ends with the result array at `GF` of the argument arrays and
    the arguments unchanged. -/
theorem run : θ_run defs (onTc (τ := τ) (main (F := Ideal))) ⟨m, fun _ => 0, ρ⟩ fun r => ∀ c : Dev nD,
      r.2.mem ((c : Thread nD τ).loc main_v2)
        = GF (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.RelAttn.Kern

end
-- ==== Proof.RefValue.lean ====
/-
  The reference's result is the function `G` of its arguments.

  The reference splits the last axis of the query, key and value arrays into (head, coordinate) and moves the head axis
  forward, so that its working arrays are indexed (batch, head, position, coordinate); entry (b, h, s, e) of such an array
  is entry (b, s, 64 h + e) of the argument. Read at (b, h, s, ·) its operations are, in order: the split score row, its
  maximum taken from `-∞` (and once more against `-∞`, which changes nothing), the softmax weights, and the split
  output. The last two operations move the head axis back and merge it with the coordinate axis.
-/
import proofs.«112775_j2422361555012_2_alg».proof.Proof.Gen.ReferenceIdeal.Read
import proofs.«112775_j2422361555012_2_alg».proof.Proof.AttnIdx
import Idealize.ShloMosaic.PureOps.Reduce

noncomputable section

namespace Cert.RelAttn.Ref

open Cert.ReferenceIdeal Cert.ReferenceIdeal.Gen Cert.ReferenceIdeal.Read Cert.RelAttn
open Idealize.ShloMosaic Idealize.ShloMosaic.ValueIdx

variable (x0 x1 x2 : FVec Ideal S4x1024x1024 .f32) (x3 x4 : FVec Ideal S2048x64 .f32)

/-! ## The arguments re-laid: entry (b, h, s, e) is entry (b, s, 64 h + e) -/

theorem split_index (b : Fin 4) (h : Fin 16) (s : Fin 1024) (e : Fin 64) :
    idx_main_v0 (idx_main_v1 (ix4 b h s e)) = at3 b s h e := by
  have hb := b.isLt; have hh := h.isLt; have hs := s.isLt; have he := e.isLt
  refine funext fun a => Fin.ext ?_
  match a with
  | ⟨0, _⟩ => show (((b.val * 1024 + s.val) * 16 + h.val) * 64 + e.val) / 1048576 = b.val; omega
  | ⟨1, _⟩ => show (((b.val * 1024 + s.val) * 16 + h.val) * 64 + e.val) / 1024 % 1024 = s.val; omega
  | ⟨2, _⟩ => show (((b.val * 1024 + s.val) * 16 + h.val) * 64 + e.val) % 1024 = h.val * 64 + e.val; omega

theorem query_at (b : Fin 4) (h : Fin 16) (s : Fin 1024) (e : Fin 64) :
    val_main_v1 (F := Ideal) x0 (ix4 b h s e) = x0 (at3 b s h e) := by
  rw [val_main_v1_apply, val_main_v0_apply]
  exact congrArg x0 (split_index b h s e)

theorem key_at (b : Fin 4) (h : Fin 16) (s : Fin 1024) (e : Fin 64) :
    val_main_v3 (F := Ideal) x1 (ix4 b h s e) = x1 (at3 b s h e) := by
  rw [val_main_v3_apply, val_main_v2_apply]
  exact congrArg x1 (split_index b h s e)

theorem value_at (b : Fin 4) (h : Fin 16) (s : Fin 1024) (e : Fin 64) :
    val_main_v5 (F := Ideal) x2 (ix4 b h s e) = x2 (at3 b s h e) := by
  rw [val_main_v5_apply, val_main_v4_apply]
  exact congrArg x2 (split_index b h s e)

theorem keyTable_at (j : Fin 1024) (e : Fin 64) : val_main_v9 (F := Ideal) x3 (ix2 j e) = x3 (row j e) := by
  rw [val_main_v9_apply]
  exact congrArg x3 (funext fun a => Fin.ext (by match a with | ⟨0, _⟩ => rfl | ⟨1, _⟩ => rfl))

theorem valueTable_at (j : Fin 1024) (e : Fin 64) : val_main_v24 (F := Ideal) x4 (ix2 j e) = x4 (row j e) := by
  rw [val_main_v24_apply]
  exact congrArg x4 (funext fun a => Fin.ext (by match a with | ⟨0, _⟩ => rfl | ⟨1, _⟩ => rfl))

/-! ## The score row -/

/-- The scores of query (b, h, s) against every key, as the reference computes them. -/
def scoreRow (b : Fin 4) (h : Fin 16) (s : Fin 1024) : Fin 1024 → EReal :=
  splitScore scale (fun e => x0 (at3 b s h e)) (fun j e => x1 (at3 b j h e)) (fun j e => x3 (row j e))

theorem score_at (b : Fin 4) (h : Fin 16) (s j : Fin 1024) :
    val_main_v11 (F := Ideal) x0 x1 x3 (ix4 b h s j) = scoreRow x0 x1 x3 b h s j := by
  have l6 : ∀ k : Fin 64, lidx_main_v6 (ix4 b h s j) k = ix4 b h s k := fun k => funext fun a => by
    match a with | ⟨0, _⟩ => rfl | ⟨1, _⟩ => rfl | ⟨2, _⟩ => rfl | ⟨3, _⟩ => rfl
  have r6 : ∀ k : Fin 64, ridx_main_v6 (ix4 b h s j) k = ix4 b h j k := fun k => funext fun a => by
    match a with | ⟨0, _⟩ => rfl | ⟨1, _⟩ => rfl | ⟨2, _⟩ => rfl | ⟨3, _⟩ => rfl
  have l10 : ∀ k : Fin 64, lidx_main_v10 (ix4 b h s j) k = ix4 b h s k := fun k => funext fun a => by
    match a with | ⟨0, _⟩ => rfl | ⟨1, _⟩ => rfl | ⟨2, _⟩ => rfl | ⟨3, _⟩ => rfl
  have r10 : ∀ k : Fin 64, ridx_main_v10 (ix4 b h s j) k = ix2 j k := fun k => funext fun a => by
    match a with | ⟨0, _⟩ => rfl | ⟨1, _⟩ => rfl
  rw [val_main_v11_apply, val_main_v8_apply, val_main_v6_apply, val_main_v7_apply, val_main_cst_apply, val_main_v10_apply]
  simp only [l6, r6, l10, r10, query_at, key_at, keyTable_at, Ideal.addf_def, Ideal.mulf_def, Ideal.ofBits_def]
  rfl

/-! ## The row maximum -/

theorem negInf : Ideal.ofBits .f32 0xFF800000#32 = ⊥ := by simp [Ideal.ofBits, Ideal.ieee]

theorem max_at (b : Fin 4) (h : Fin 16) (s : Fin 1024) :
    val_main_v14 (F := Ideal) x0 x1 x3 (ix3 b h s) = rowMax (scoreRow x0 x1 x3 b h s) := by
  rw [val_main_v14_apply, val_main_v13_apply, val_main_cst_1_apply]
  unfold val_main_v12
  rw [Host.reduce_eq_fold_single FloatOps.maximumf _ _ reducesTo_S4x16x1024x1024_S4x16x1024_d3 (by decide) h_S_]
  have hf : (val_main_v11 (F := Ideal) x0 x1 x3 ∘ Shape.Reduces.lift (by decide : S4x16x1024x1024.Reduces [3] S4x16x1024) (ix3 b h s))
      = scoreRow x0 x1 x3 b h s := funext fun k => by
    refine Eq.trans (congrArg (val_main_v11 (F := Ideal) x0 x1 x3) (funext fun a => Fin.ext ?_)) (score_at x0 x1 x3 b h s k)
    match a with | ⟨0, _⟩ => rfl | ⟨1, _⟩ => rfl | ⟨2, _⟩ => rfl | ⟨3, _⟩ => rfl
  rw [hf, val_main_cst_0_apply]
  simp only [Ideal.maximumf_def, Ideal.ofBits_def, negInf]
  unfold rowMax
  exact max_bot_left _

/-! ## The softmax weights -/

theorem exp_at (b : Fin 4) (h : Fin 16) (s k : Fin 1024) :
    val_main_v18 (F := Ideal) x0 x1 x3 (ix4 b h s k)
      = Ideal.exp (scoreRow x0 x1 x3 b h s k - rowMax (scoreRow x0 x1 x3 b h s)) := by
  have i16 : idx_main_v15 (idx_main_v16 (ix4 b h s k)) = ix3 b h s := funext fun a => by
    match a with | ⟨0, _⟩ => rfl | ⟨1, _⟩ => rfl | ⟨2, _⟩ => rfl
  rw [val_main_v18_apply, val_main_v17_apply, val_main_v16_apply, val_main_v15_apply, i16, max_at, score_at]
  rfl

theorem weight_at (b : Fin 4) (h : Fin 16) (s j : Fin 1024) :
    val_main_v22 (F := Ideal) x0 x1 x3 (ix4 b h s j) = weight (scoreRow x0 x1 x3 b h s) j := by
  have i21 : idx_main_v20 (idx_main_v21 (ix4 b h s j)) = ix3 b h s := funext fun a => by
    match a with | ⟨0, _⟩ => rfl | ⟨1, _⟩ => rfl | ⟨2, _⟩ => rfl
  have i19 : ∀ k : Fin 1024, idx_main_v19 (ix3 b h s) k = ix4 b h s k := fun k => funext fun a => by
    match a with | ⟨0, _⟩ => rfl | ⟨1, _⟩ => rfl | ⟨2, _⟩ => rfl | ⟨3, _⟩ => rfl
  rw [val_main_v22_apply, val_main_v21_apply, val_main_v20_apply, i21, val_main_v19_apply, val_main_cst_2_apply]
  simp only [i19, exp_at, Ideal.hostDivf_def, Ideal.ofBits_def, Ideal.ofBits_zero_f32, zero_add]
  rfl

/-! ## The output -/

theorem out_at (b : Fin 4) (h : Fin 16) (s : Fin 1024) (d : Fin 64) :
    val_main_v26 (F := Ideal) x0 x1 x2 x3 x4 (ix4 b h s d) = headAt x0 x1 x2 x3 x4 b s h d := by
  have l23 : ∀ k : Fin 1024, lidx_main_v23 (ix4 b h s d) k = ix4 b h s k := fun k => funext fun a => by
    match a with | ⟨0, _⟩ => rfl | ⟨1, _⟩ => rfl | ⟨2, _⟩ => rfl | ⟨3, _⟩ => rfl
  have r23 : ∀ k : Fin 1024, ridx_main_v23 (ix4 b h s d) k = ix4 b h k d := fun k => funext fun a => by
    match a with | ⟨0, _⟩ => rfl | ⟨1, _⟩ => rfl | ⟨2, _⟩ => rfl | ⟨3, _⟩ => rfl
  have l25 : ∀ k : Fin 1024, lidx_main_v25 (ix4 b h s d) k = ix4 b h s k := fun k => funext fun a => by
    match a with | ⟨0, _⟩ => rfl | ⟨1, _⟩ => rfl | ⟨2, _⟩ => rfl | ⟨3, _⟩ => rfl
  have r25 : ∀ k : Fin 1024, ridx_main_v25 (ix4 b h s d) k = ix2 k d := fun k => funext fun a => by
    match a with | ⟨0, _⟩ => rfl | ⟨1, _⟩ => rfl
  rw [val_main_v26_apply, val_main_v23_apply, val_main_v25_apply]
  simp only [l23, r23, l25, r25, weight_at, value_at, valueTable_at, Ideal.addf_def]
  rfl

/-! ## The heads moved back: the result is `G` -/

theorem ref_eq_G : val_main_v28 (F := Ideal) x0 x1 x2 x3 x4 = G x0 x1 x2 x3 x4 := by
  funext i
  have h0 : (i 0).val < 4 := (i 0).isLt
  have h1 : (i 1).val < 1024 := (i 1).isLt
  have h2 : (i 2).val < 1024 := (i 2).isLt
  have e : idx_main_v27 (idx_main_v28 i)
      = ix4 (⟨(i 0).val, h0⟩ : Fin 4) (⟨(i 2).val / 64, by omega⟩ : Fin 16) (⟨(i 1).val, h1⟩ : Fin 1024)
          (⟨(i 2).val % 64, Nat.mod_lt _ (by decide)⟩ : Fin 64) := funext fun a => Fin.ext (by
    match a with
    | ⟨0, _⟩ => show (((i 0).val * 1024 + (i 1).val) * 1024 + (i 2).val) / 1048576 = (i 0).val; omega
    | ⟨1, _⟩ => show (((i 0).val * 1024 + (i 1).val) * 1024 + (i 2).val) / 64 % 16 = (i 2).val / 64; omega
    | ⟨2, _⟩ => show (((i 0).val * 1024 + (i 1).val) * 1024 + (i 2).val) / 1024 % 1024 = (i 1).val; omega
    | ⟨3, _⟩ => show (((i 0).val * 1024 + (i 1).val) * 1024 + (i 2).val) % 64 = (i 2).val % 64; omega)
  rw [val_main_v28_apply, val_main_v27_apply, e, out_at]
  rfl

end Cert.RelAttn.Ref

end
-- ==== Proof.FiniteInputs.lean ====
/-
  THE PRECONDITION READ BACK: every input entry is a real number.
  The precondition is, for each of the five float arrays, "|x| < +∞ at every index" — the elementwise comparison of
  max x (-x) with the pattern 0x7F800000 (which denotes ⊤), folded by `and` over all axes into a rank-0 result — and the
  conjunction of the five results. Here it is decoded: a conjunction of one-bit words that is 1 has every conjunct 1; a
  fold by `and` over all axes that is 1 had a 1 at every index; and an extended real x with max x (-x) < ⊤ is neither
  ⊤ nor ⊥, so it is the coercion of a real.
-/
import proofs.«112775_j2422361555012_2_alg».proof.Pre_finite_inputs
import proofs.«112775_j2422361555012_2_alg».proof.Proof.Gen.Pre_finite_inputs
import Idealize.ShloMosaic.PureOps.Ideal
import Idealize.ShloMosaic.Lib.ReduceAll

noncomputable section

namespace Cert.FiniteInputs

open Idealize.ShloMosaic

/-- The rank-0 shape has one index: two of its indices agree at each of its (no) axes. -/
instance subsingleton_S_ : Subsingleton Cert.Pre_finite_inputs.S_.Idx := ⟨fun a b => funext fun d => d.elim0⟩

/-- An extended real whose absolute value max x (-x) is below ⊤ is a real: at ⊤ the maximum is ⊤, at ⊥ it is -⊥ = ⊤. -/
theorem real_of_abs_lt_top (x : EReal) (h : max x (-x) < ⊤) : ∃ r : ℝ, x = (r : EReal) := by
  induction x using EReal.rec with
  | bot => simp at h
  | coe r => exact ⟨r, rfl⟩
  | top => simp at h

/-- The element test: the ordered comparison |x| < 0x7F800000 (the pattern of +∞, which denotes ⊤) came out 1, so x is real. -/
theorem real_of_test (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  by_cases hlt : max (x : EReal) (-(x : EReal)) < ⊤
  · exact real_of_abs_lt_top x hlt
  · exfalso
    simp [Ideal.cmp, hlt] at h

/-- One array, any shape: its "all |x| < +∞" (the test at every index, folded by `and` over all axes into the rank-0
    result) is 1, so every entry is real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
        (cmpf .olt (Host.absf x) (broadcastInDim s ![] hb (constant Cert.Pre_finite_inputs.S_ .f32 0x7F800000#32)))
        (constantI Cert.Pre_finite_inputs.S_ 1 1#1) hr hu j = 1#1) :
    ∀ i, ∃ r : ℝ, x i = (r : EReal) := fun i =>
  real_of_test (x i) (Host.reduce_andi_all _ _ hr hu j e i)

/-- THE PRECONDITION DECODED: it is all ones, so each of the five arrays holds real numbers only. -/
theorem real_of_pre [Cert.Pre_finite_inputs.Facts]
    (x0 x1 x2 : FVec Ideal Cert.Pre_finite_inputs.S4x1024x1024 .f32) (x3 x4 : FVec Ideal Cert.Pre_finite_inputs.S2048x64 .f32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
    ∧ (∀ i, ∃ r : ℝ, x3 i = (r : EReal)) ∧ (∀ i, ∃ r : ℝ, x4 i = (r : EReal)) := by
  -- the result at its one index
  have e := congrFun h (fun a => a.elim0)
  dsimp only [Cert.Pre_finite_inputs.fn, Cert.Pre_finite_inputs.fn_part1] at e
  -- the four joins by `and`, each 1 exactly when both sides are
  simp only [andi, IntOp.andi_eq_one] at e
  obtain ⟨⟨⟨⟨h0, h1⟩, h2⟩, h3⟩, h4⟩ := e
  exact ⟨real_of_all x0 _ _ _ _ h0, real_of_all x1 _ _ _ _ h1, real_of_all x2 _ _ _ _ h2,
    real_of_all x3 _ _ _ _ h3, real_of_all x4 _ _ _ _ h4⟩

end Cert.FiniteInputs

end
-- ==== Proof.lean ====
/-
  Relative-position attention: a kernel that folds the position tables into its operands, against the reference that
  keeps them apart.

  For batch b, head h, query position s and output coordinate d, with Q, K, V the three [4, 1024, 1024] arguments (head
  h in columns [64 h, 64 h + 64)) and RK, RV the first 1024 rows of the two [2048, 64] tables:
    the kernel     scores  Σ_e Q·(K/8 + RK),           output  Σ_j w_j·(V_j + RV_j);
    the reference  scores  (Σ_e Q·K)/8 + Σ_e Q·RK,     output  Σ_j w_j·V_j + Σ_j w_j·RV_j;
  in both, w is the softmax of the score row (the row's maximum, taken from -∞, subtracted before the exponential).
  The two differ by distributivity of the product over the sum, twice. That law fails on the extended reals at the
  infinities, and holds here because the precondition makes every input a real number: then every score is real, the
  row maximum of 1024 reals is real, the exponentials are positive reals, their sum is a nonzero real, and every weight
  is real.

  The pieces: the reference's run read back stage by stage is the function `G` of the arguments (RefValue); the kernel
  writes, at each of its 4 × 8 grid points, a block of the function `GF` — two heads side by side —, and the blocks tile
  the output (KernelCore, KernelBlock, KernelArray); `GF = G` on real-valued inputs (AttnAlgebra, AttnJoin); the
  precondition gives real-valued inputs (FiniteInputs). The kernel's idealization rewrote nothing, so it is the kernel's
  own text read on the extended reals.
-/
import proofs.«112775_j2422361555012_2_alg».proof.Defs
import proofs.«112775_j2422361555012_2_alg».proof.Proof.Gen.Kernel
import proofs.«112775_j2422361555012_2_alg».proof.Proof.Gen.Kernel.Skeleton
import proofs.«112775_j2422361555012_2_alg».proof.Proof.Gen.Kernel.Launch
import proofs.«112775_j2422361555012_2_alg».proof.Proof.Gen.Kernel.Points
import proofs.«112775_j2422361555012_2_alg».proof.Proof.Gen.Kernel.Frame
import proofs.«112775_j2422361555012_2_alg».proof.Proof.Gen.KernelIdeal
import proofs.«112775_j2422361555012_2_alg».proof.Proof.Gen.KernelIdeal.Skeleton
import proofs.«112775_j2422361555012_2_alg».proof.Proof.Gen.KernelIdeal.Launch
import proofs.«112775_j2422361555012_2_alg».proof.Proof.Gen.KernelIdeal.Points
import proofs.«112775_j2422361555012_2_alg».proof.Proof.Gen.KernelIdeal.Frame
import proofs.«112775_j2422361555012_2_alg».proof.Proof.Gen.ReferenceIdeal
import proofs.«112775_j2422361555012_2_alg».proof.Proof.Gen.KernelIdeal.Value
import proofs.«112775_j2422361555012_2_alg».proof.Proof.Gen.ReferenceIdeal.Run
import proofs.«112775_j2422361555012_2_alg».proof.Proof.Gen.ReferenceIdeal.Read
import proofs.«112775_j2422361555012_2_alg».proof.Proof.Gen.Pre_finite_inputs
import proofs.«112775_j2422361555012_2_alg».proof.Proof.KernelArray
import proofs.«112775_j2422361555012_2_alg».proof.Proof.RefValue
import proofs.«112775_j2422361555012_2_alg».proof.Proof.FiniteInputs
import Idealize.ShloMosaic.Adequacy
import Idealize.ShloMosaic.Init

noncomputable section

namespace Cert.Proof

open Idealize.ShloMosaic Idealize.ShloMosaic.TcCoe Idealize.SL.Sem Cert.RelAttn

/-- The kernel as printed terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, run from memories that agree on the arguments, end with the array `G` of the arguments: the reference
    by its run read back, the kernel by its blocks (`GF`) and the equality of the two arrangements on the real-valued
    inputs the precondition gives. -/
theorem algebraic : Cert.algebraic_KernelIdeal_ReferenceIdeal := by
  intro m ρ m' ρ' hpre hagree
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩) (Cert.RelAttn.Kern.run m ρ)
    obtain ⟨f0, f1, f2, f3, f4⟩ := Cert.FiniteInputs.real_of_pre _ _ _ _ _ (hpre c)
    exact GF_eq_G _ _ _ _ _ f0 f1 f2 f3 f4
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v28_eq, Cert.RelAttn.Ref.ref_eq_G, (hagree c).1, (hagree c).2.1, (hagree c).2.2.1,
      (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
